-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩
abbrev S2048 : Shape := ⟨1, ![2048]⟩
abbrev S1x2048 : Shape := ⟨2, ![1, 2048]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  reducesTo_S16384x2048_S2048_d0 : S16384x2048.ReducesTo [0] S2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S2048_S_d0 : S2048.ReducesTo [0] S_

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_cst_0 : FVec F S_ .f32 := constant S_ .f32 0x00000000#32
  let main_v4 : FVec F S2048 .f32 := (fun x v => Host.reduceAdd x v reducesTo_S16384x2048_S2048_d0 h_S_) main_arg0 main_cst_0
  let main_cst_1 : FVec F S_ .f32 := constant S_ .f32 0x46800000#32
  let main_v5 : FVec F S2048 .f32 := broadcastInDim S2048 ![] bcast_S_S2048 main_cst_1
  let main_v6 : FVec F S2048 .f32 := Host.divf main_v4 main_v5
  let main_v7 : FVec F S1x2048 .f32 := broadcastInDim S1x2048 ![1] bcast_S2048_S1x2048_1 main_v6
  let main_v8 : FVec F S16384x2048 .f32 := broadcastInDim S16384x2048 ![0, 1] bcast_S1x2048_S16384x2048_0_1 main_v7
  let main_v9 : FVec F S16384x2048 .f32 := subf main_arg0 main_v8
  let main_v10 : FVec F S16384x2048 .f32 := mulf main_v9 main_v9
  let main_cst_2 : FVec F S_ .f32 := constant S_ .f32 0x00000000#32
  let main_v11 : FVec F S2048 .f32 := (fun x v => Host.reduceAdd x v reducesTo_S16384x2048_S2048_d0 h_S_) main_v10 main_cst_2
  let main_cst_3 : FVec F S_ .f32 := constant S_ .f32 0x00000000#32
  let main_v12 : FVec F S2048 .f32 := broadcastInDim S2048 ![] bcast_S_S2048 main_cst_3
  let main_v13 : IVec S2048 1 := cmpf .ogt main_v11 main_v12
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v3 main_v14
  main_v15
-- ==== Kernel.lean ====
abbrev S16384x2048 : Shape := ⟨2, ![16384, 2048]⟩
abbrev S16x2048 : Shape := ⟨2, ![16, 2048]⟩
abbrev S512x2048 : Shape := ⟨2, ![512, 2048]⟩
abbrev S8x2048 : Shape := ⟨2, ![8, 2048]⟩
abbrev S2048 : Shape := ⟨1, ![2048]⟩
abbrev S1x2048 : Shape := ⟨2, ![1, 2048]⟩
abbrev S_ : Shape := ⟨0, ![]⟩
abbrev S16384x1 : Shape := ⟨2, ![16384, 1]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 33
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S16x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S1024x2048, .f32⟩
  | .local _ .vmem, ⟨7, _⟩ => ⟨S1024x2048, .f32⟩
  | .local _ .vmem, ⟨8, _⟩ => ⟨S1x2048, .f32⟩
  | .local _ .vmem, ⟨9, _⟩ => ⟨S1x2048, .f32⟩
  | .local _ .vmem, ⟨10, _⟩ => ⟨S1024x1, .f32⟩
  | .local _ .vmem, ⟨11, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S8x2048_S8x2048_0_0 : ∀ a, (![0, 0] : Fin 2 → Nat) a + S8x2048.size a ≤ S8x2048.size a
  h_S8x2048 : 0 < S8x2048.numel
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  shapeCasts_S2048_S1x2048 : S2048.ShapeCasts S1x2048
  shapeCasts_S8x2048_S8x2048 : S8x2048.ShapeCasts S8x2048
  shapeCasts_S1x2048_S1x2048 : S1x2048.ShapeCasts S1x2048
  broadcasts_S1x2048_S8x2048 : S1x2048.Broadcasts S8x2048
  slices_S16x2048_S1x2048_0_0 : S16x2048.Slices ![0, 0] S1x2048
  slices_S16x2048_S1x2048_8_0 : S16x2048.Slices ![8, 0] S1x2048
  bcast_S_S1x2048 : S_.BroadcastsInDim S1x2048 (![] : Fin 0 → Fin S1x2048.rank)
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  broadcasts_S1x2048_S1024x2048 : S1x2048.Broadcasts S1024x2048
  reduces_S1024x2048_S1024 : S1024x2048.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  reducesTo_S16384x1_S_d0_1 : S16384x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S16x2048.size a
  hwx0_1 : ∀ i : grid0.Coords, EltTy.bits .f32 = 32 ∨ (Rect.block (s := S16x2048) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S16x2048.size a
  hwx0_2 : ∀ i : grid0.Coords, EltTy.bits .f32 = 32 ∨ (Rect.block (s := S16x2048) S8x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .f32 = 32 ∨ (Rect.block (s := S16384x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S16384x1.size a
  hwx1_3 : ∀ i : grid1.Coords, EltTy.bits .f32 = 32 ∨ (Rect.block (s := S16384x1) S1024x1.size (cc1_transform_3 i) (hinb1_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S_ : Shape := ⟨0, ![]⟩
abbrev S2048 : Shape := ⟨1, ![2048]⟩
abbrev S1x2048 : Shape := ⟨2, ![1, 2048]⟩
abbrev S16384 : Shape := ⟨1, ![16384]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S_, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S2048, .f32⟩
  | .hbm, ⟨6, _⟩ => ⟨S_, .i32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_cst_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_cst_2 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_cst_3 : Ref sig .tc := ⟨.hbm, 23, rfl⟩
abbrev main_call0_call0_v12 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_call0_call0_v1 : Ref sig .tc := ⟨.hbm, 27, rfl⟩
abbrev main_call0_v0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_4 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_cst_6 : Ref sig .tc := ⟨.hbm, 51, rfl⟩
abbrev main_v20 : Ref sig .tc := ⟨.hbm, 52, rfl⟩

abbrev nD : Nat := 1
abbrev τ : Topo := Topo.v7x

variable {F : FTy → Type} [FloatOps F]

class Facts₀ : Prop where
  reducesTo_S16384x2048_S2048_d0 : S16384x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.KerRun.lean ====
/- The kernel program's run with its result kept: every weakly fair execution of @main terminates, nothing
   faulting, the argument array unchanged, and the result buffer holding what the fold of @main's segments leaves
   there — the two host stretches' operations applied over the two regions' final arrays. -/
import proofs.«143915_j86096914415914_2_alg».proof.Proof.Gen.KernelIdeal.Frame

set_option maxRecDepth 16384

noncomputable section

namespace Cert.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents `W4`, the argument as launched. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c)⟩)

end Cert.KerRun

end
-- ==== Proof.Spec.lean ====
/- What the two programs compute, as plain functions of the input matrix `w` (16384 rows, 2048 columns) over the
   extended reals, in the form each program spells.

   Both standardise every column over the rows and then, per row, form the mean over ordered pairs of distinct columns
   of the product of the standardised entries by the identity  sum_{i != j} f_i f_j = (sum f)^2 - sum f^2,
   take absolute values, and average over the rows.

   The kernel's form: column sums `S1 = sum_b w`, `S2 = sum_b w^2`; mean `S1 / B`; the ONE-PASS variance
   `max (S2 / B - mean^2) 0`; `a = 1 / sqrt var`, `c = mean * a`; the standardised entry as `w * a - c`.
   The reference's form: mean `S1 / B`; the TWO-PASS variance `(sum_b (w - mean)^2) / B`; the standardised entry as
   `(w - mean) / sqrt var`.
   They agree when every entry is a real number and every column's sum of squared deviations is positive
   (Proof/Bridge.lean); on a constant column the reference divides 0 by 0. -/
import Idealize.ShloMosaic.PureOps.Ideal

noncomputable section

namespace Cert.Spec

open Idealize.ShloMosaic

/-- The input as a function of (row, column). -/
abbrev Mat := Fin 16384 → Fin 2048 → EReal

/-- The batch size, and the number of ordered pairs of distinct columns. -/
abbrev cB : EReal := ((16384 : ℝ) : EReal)
abbrev cP : EReal := ((4192256 : ℝ) : EReal)

/-! ## The tail both programs share: from the standardised matrix to the scalar -/

/-- Row `b`'s pair mean from its standardised entries: `((sum f)^2 - sum f^2) / (N (N-1))`. -/
def pairMean (f : Mat) (b : Fin 16384) : EReal :=
  Ideal.div ((∑ j, f b j) * (∑ j, f b j) - ∑ j, f b j * f b j) cP

/-- The scalar result: `1 * (sum_b |pairMean b|) / B`. -/
def out (f : Mat) : EReal :=
  1 * Ideal.div (∑ b, max (pairMean f b) (-(pairMean f b))) cB

/-! ## The reference's standardisation -/

def rMean (w : Mat) (j : Fin 2048) : EReal := Ideal.div (∑ b, w b j) cB
/-- Column `j`'s sum of squared deviations from its mean. -/
def rSS (w : Mat) (j : Fin 2048) : EReal := ∑ b, (w b j - rMean w j) * (w b j - rMean w j)
def rStd (w : Mat) (j : Fin 2048) : EReal := Ideal.sqrt (Ideal.div (rSS w j) cB)
def rFs (w : Mat) : Mat := fun b j => Ideal.div (w b j - rMean w j) (rStd w j)
def rOut (w : Mat) : EReal := out (rFs w)

/-! ## The kernel's standardisation -/

def kS1 (w : Mat) (j : Fin 2048) : EReal := ∑ b, w b j
def kS2 (w : Mat) (j : Fin 2048) : EReal := ∑ b, w b j * w b j
def kMean (w : Mat) (j : Fin 2048) : EReal := Ideal.div (kS1 w j) cB
def kVar (w : Mat) (j : Fin 2048) : EReal := max (Ideal.div (kS2 w j) cB - kMean w j * kMean w j) 0
/-- The per-column scale `1 / sqrt var` and shift `mean / sqrt var` the second kernel is handed. -/
def kA (w : Mat) (j : Fin 2048) : EReal := Ideal.div 1 (Ideal.sqrt (kVar w j))
def kC (w : Mat) (j : Fin 2048) : EReal := kMean w j * kA w j
def kFs (w : Mat) : Mat := fun b j => w b j * kA w j - kC w j
def kOut (w : Mat) : EReal := out (kFs w)

end Cert.Spec

end
-- ==== Proof.Consts.lean ====
/- The float literals the two programs spell, as the extended reals their bit patterns denote: the batch size
   16384 = 2^14, the number of ordered pairs 2048 * 2047 = 4192256, the scale 1, and +infinity (the bound in the
   finiteness test). Each is a power of two times an integer below 2^24, so the pattern denotes it exactly. -/
import Idealize.ShloMosaic.PureOps.Ideal

noncomputable section

namespace Cert.Consts

open Idealize.ShloMosaic

/-- The pattern of `16384.0` denotes the real 16384. -/
theorem ofBits_16384 : Ideal.ofBits .f32 0x46800000#32 = ((16384 : ℝ) : EReal) := by
  simp [Ideal.ofBits, Ideal.ieee, -EReal.coe_mul]; norm_num

/-- The pattern of `4192256.0` denotes the real 4192256 = 2048 * 2047. -/
theorem ofBits_4192256 : Ideal.ofBits .f32 0x4A7FE000#32 = ((4192256 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-- The pattern of `+inf` denotes the top element. -/
theorem ofBits_inf : Ideal.ofBits .f32 0x7F800000#32 = ⊤ := by
  simp [Ideal.ofBits, Ideal.ieee]

end Cert.Consts

end
-- ==== Proof.KerHost.lean ====
/- The host operations of the kernel's program around its two kernels.

   Between them: from the two [16, 2048] statistics arrays (row 0 and row 8 hold the two cores' column totals) the
   column totals `S = row 0 + row 8`, the mean `S1 / B`, the clamped one-pass variance `max (S2 / B - mean^2) 0`,
   its square root, the scale `a = 1 / sqrt var` and the shift `c = mean * a`, each a [1, 2048] row.
   After them: the absolute values of the [16384, 1] column of pair means, summed, divided by B, times 1. -/
import proofs.«143915_j86096914415914_2_alg».proof.Proof.Gen.KernelIdeal.Frame
import proofs.«143915_j86096914415914_2_alg».proof.Proof.Spec
import proofs.«143915_j86096914415914_2_alg».proof.Proof.Consts
import Idealize.ShloMosaic.Lib.StableHlo.Run
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KerHost

open Cert.KernelIdeal Cert.KernelIdeal.Gen ValueIdx

/-! ## The operations, as functions of the arrays they read -/

/-- Row 0 plus row 8 of a statistics array. -/
abbrev hSum (s : FVec Ideal S16x2048 .f32) : FVec Ideal S1x2048 .f32 :=
  addf (extractStridedSlice S1x2048 ![0, 0] s Cert.KernelIdeal.Facts₀.slices_S16x2048_S1x2048_0_0)
    (extractStridedSlice S1x2048 ![8, 0] s Cert.KernelIdeal.Facts₀.slices_S16x2048_S1x2048_8_0)
/-- Division of a row by the batch size. -/
abbrev hDivB (v : FVec Ideal S1x2048 .f32) : FVec Ideal S1x2048 .f32 :=
  Host.divf v (broadcastInDim S1x2048 ![] Cert.KernelIdeal.Facts₀.bcast_S_S1x2048 (constant (F := Ideal) S_ .f32 0x46800000#32))
abbrev hMean (s1 : FVec Ideal S16x2048 .f32) : FVec Ideal S1x2048 .f32 := hDivB (hSum s1)
abbrev hStd (s1 s2 : FVec Ideal S16x2048 .f32) : FVec Ideal S1x2048 .f32 :=
  Host.sqrt (maximumf (subf (hDivB (hSum s2)) (mulf (hMean s1) (hMean s1)))
    (broadcastInDim S1x2048 ![] Cert.KernelIdeal.Facts₀.bcast_S_S1x2048 (constant (F := Ideal) S_ .f32 0x00000000#32)))
abbrev hA (s1 s2 : FVec Ideal S16x2048 .f32) : FVec Ideal S1x2048 .f32 :=
  Host.divf (broadcastInDim S1x2048 ![] Cert.KernelIdeal.Facts₀.bcast_S_S1x2048 (constant (F := Ideal) S_ .f32 0x3F800000#32)) (hStd s1 s2)
abbrev hC (s1 s2 : FVec Ideal S16x2048 .f32) : FVec Ideal S1x2048 .f32 := mulf (hMean s1) (hA s1 s2)

/-- The operations after the second kernel, of its output column. -/
abbrev hTail (v : FVec Ideal S16384x1 .f32) : FVec Ideal S_ .f32 :=
  mulf (constant (F := Ideal) S_ .f32 0x3F800000#32)
    (Host.divf (Host.reduceAdd (Host.absf v) (constant (F := Ideal) S_ .f32 0x00000000#32)
        Cert.KernelIdeal.Facts₀.reducesTo_S16384x1_S_d0_1 Cert.KernelIdeal.Facts₀.h_S_)
      (constant (F := Ideal) S_ .f32 0x46800000#32))

/-! ## The buffers at the segment boundaries -/

section Folds
variable (m : (ℓ : Loc nD τ sig) → Buf (Elt Ideal) ℓ) (ρ : Dev nD → PrngReg)

/-- When the second kernel is entered its scale row is `hA` of the first kernel's two output arrays, -/
theorem V2_v17 (c : Dev nD) : (V2 m ρ c main_v17 : S1x2048.Idx → EReal)
    = hA (W1 m ρ c (Proc.devRef .tc main_v0_0)) (W1 m ρ c (Proc.devRef .tc main_v0_1)) := by
  show StableHlo.after hostOps1 (W1 m ρ c) (Proc.devRef .tc main_v17) = _
  after_results

/-- its shift row `hC` of them, -/
theorem V2_v18 (c : Dev nD) : (V2 m ρ c main_v18 : S1x2048.Idx → EReal)
    = hC (W1 m ρ c (Proc.devRef .tc main_v0_0)) (W1 m ρ c (Proc.devRef .tc main_v0_1)) := by
  show StableHlo.after hostOps1 (W1 m ρ c) (Proc.devRef .tc main_v18) = _
  after_results

/-- and the input array is as launched. -/
theorem V2_arg0 (c : Dev nD) : (V2 m ρ c main_arg0 : S16384x2048.Idx → EReal) = m ((c : Thread nD τ).loc main_arg0) := by
  show StableHlo.after hostOps1 (W1 m ρ c) (Proc.devRef .tc main_arg0) = _
  after_results
  exact (W1_arr m ρ c 0).trans (((dat0 (V0 m ρ) c).arrAt_in 0 rfl _).trans (A_eq0 (V0 m ρ) c 0))

/-- The result buffer ends at `hTail` of the second kernel's output array. -/
theorem W4_v23 (c : Dev nD) : (W4 m ρ c (Proc.devRef .tc main_v23) : S_.Idx → EReal)
    = hTail (W3 m ρ c (Proc.devRef .tc main_v19)) := by
  show StableHlo.after hostOps2 (W3 m ρ c) (Proc.devRef .tc main_v23) = _
  after_results

end Folds

/-! ## The operations read at an index -/

theorem hSum_apply (s : FVec Ideal S16x2048 .f32) (j : Fin 2048) :
    hSum s (ix2 (0 : Fin 1) j) = s (ix2 (0 : Fin 16) j) + s (ix2 (8 : Fin 16) j) := by
  refine (addf_apply _ _ _).trans ?_
  rw [slice2_axis0_apply 0 s _ (0 : Fin 1) j (0 : Fin 16) rfl, slice2_axis0_apply 8 s _ (0 : Fin 1) j (8 : Fin 16) rfl]

theorem hDivB_apply (v : FVec Ideal S1x2048 .f32) (i : S1x2048.Idx) : hDivB v i = Ideal.div (v i) Spec.cB := by
  show Ideal.div (v i) (Ideal.ofBits .f32 0x46800000#32) = _
  rw [Consts.ofBits_16384]

/-- The scale row at column `j`, from the column totals `t1`, `t2` of the two statistics arrays. -/
theorem hA_apply (s1 s2 : FVec Ideal S16x2048 .f32) (j : Fin 2048) (t1 t2 : EReal)
    (h1 : s1 (ix2 (0 : Fin 16) j) + s1 (ix2 (8 : Fin 16) j) = t1)
    (h2 : s2 (ix2 (0 : Fin 16) j) + s2 (ix2 (8 : Fin 16) j) = t2) :
    hA s1 s2 (ix2 (0 : Fin 1) j)
      = Ideal.div 1 (Ideal.sqrt (max (Ideal.div t2 Spec.cB - Ideal.div t1 Spec.cB * Ideal.div t1 Spec.cB) 0)) := by
  show Ideal.div (Ideal.ofBits .f32 0x3F800000#32)
      (Ideal.sqrt (max (hDivB (hSum s2) (ix2 (0 : Fin 1) j) - hDivB (hSum s1) (ix2 (0 : Fin 1) j) * hDivB (hSum s1) (ix2 (0 : Fin 1) j))
        (Ideal.ofBits .f32 0x00000000#32))) = _
  rw [Consts.ofBits_one, Ideal.ofBits_zero_f32, hDivB_apply, hDivB_apply, hSum_apply, hSum_apply, h1, h2]

/-- The shift row at column `j`. -/
theorem hC_apply (s1 s2 : FVec Ideal S16x2048 .f32) (j : Fin 2048) (t1 t2 : EReal)
    (h1 : s1 (ix2 (0 : Fin 16) j) + s1 (ix2 (8 : Fin 16) j) = t1)
    (h2 : s2 (ix2 (0 : Fin 16) j) + s2 (ix2 (8 : Fin 16) j) = t2) :
    hC s1 s2 (ix2 (0 : Fin 1) j)
      = Ideal.div t1 Spec.cB * Ideal.div 1 (Ideal.sqrt (max (Ideal.div t2 Spec.cB - Ideal.div t1 Spec.cB * Ideal.div t1 Spec.cB) 0)) := by
  show hDivB (hSum s1) (ix2 (0 : Fin 1) j) * hA s1 s2 (ix2 (0 : Fin 1) j) = _
  rw [hA_apply s1 s2 j t1 t2 h1 h2, hDivB_apply, hSum_apply, h1]

/-- The tail: the sum of the column's absolute values, over B, times 1. -/
theorem hTail_apply (v : FVec Ideal S16384x1 .f32) (i : S_.Idx) :
    hTail v i = 1 * Ideal.div (∑ b : Fin 16384, max (v (ix2 b (0 : Fin 1))) (-(v (ix2 b (0 : Fin 1))))) Spec.cB := by
  show Ideal.ofBits .f32 0x3F800000#32
      * Ideal.div (Ideal.hostReduceAdd Cert.KernelIdeal.Facts₀.reducesTo_S16384x1_S_d0_1 (Host.absf v) (Ideal.ofBits .f32 0x00000000#32) i)
          (Ideal.ofBits .f32 0x46800000#32) = _
  rw [Consts.ofBits_one, Consts.ofBits_16384, Ideal.ofBits_zero_f32,
    Ideal.hostReduceAdd_total Cert.KernelIdeal.Facts₀.reducesTo_S16384x1_S_d0_1 (fun b => b.elim0), zero_add, sum_idx2]
  refine congrArg (fun s => 1 * Ideal.div s Spec.cB) (Finset.sum_congr rfl fun b _ => ?_)
  rw [Fin.sum_univ_one]
  rfl

end Cert.KerHost

end
-- ==== Proof.Region0Pieces.lean ====
/- The first kernel (column statistics), one grid point at a time.

   A point (core, step) adds to each of its two 8-row accumulator blocks the column sums of one 512-row block of the
   input — the plain sums into the first accumulator, the sums of squares into the second — each sum spread over the
   8 rows. At a core's first step the accumulators are zeroed first. Here: what the body leaves in each accumulator in
   either case, as the stored value of the loaded blocks, and that stored value read at (row, column). -/
import proofs.«143915_j86096914415914_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem

namespace Cert.Region0

open Cert.KernelIdeal Cert.KernelIdeal.Gen ValueIdx

section Cases
variable {F : FTy → Type} [FloatOps F]

theorem hz : (![0, 0] : Fin 2 → Nat) = fun _ => 0 := funext fun a => by fin_cases a <;> rfl

/-- Not the first step: the first accumulator, holding `xo1`, is left at the stored value of the input block and `xo1`. -/
theorem out_B1 (c : Dev nD) (i : grid0.Coords) (a2 : Memref sig .tc .vmem S512x2048 .f32) (h2 : a2.IsWhole)
    (a3 : Memref sig .tc .vmem S8x2048 .f32) (h3 : a3.IsWhole) (a4 : Memref sig .tc .vmem S8x2048 .f32) (h4 : a4.IsWhole)
    (hc : ¬cond0_0 i) (x : Vec F S512x2048 .f32) (xo1 xo2 : Vec F S8x2048 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero hz]
  simp only [View.readAt_eq_ld, h2.read_unread, h3.read_unread, View.ld_unit_zero (S := S512x2048) hz,
    View.ld_unit_zero (S := S8x2048) hz]

/-- Not the first step: the second accumulator, holding `xo2`, likewise. -/
theorem out_B2 (c : Dev nD) (i : grid0.Coords) (a2 : Memref sig .tc .vmem S512x2048 .f32) (h2 : a2.IsWhole)
    (a3 : Memref sig .tc .vmem S8x2048 .f32) (h3 : a3.IsWhole) (a4 : Memref sig .tc .vmem S8x2048 .f32) (h4 : a4.IsWhole)
    (hc : ¬cond0_0 i) (x : Vec F S512x2048 .f32) (xo1 xo2 : Vec F S8x2048 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz]
  simp only [View.readAt_eq_ld, h2.read_unread, h4.read_unread, View.ld_unit_zero (S := S512x2048) hz,
    View.ld_unit_zero (S := S8x2048) hz]

/-- The first step: the accumulator is zeroed, read back, and left at the stored value of the input block and the zero block. -/
theorem out_A1 (c : Dev nD) (i : grid0.Coords) (a2 : Memref sig .tc .vmem S512x2048 .f32) (h2 : a2.IsWhole)
    (a3 : Memref sig .tc .vmem S8x2048 .f32) (h3 : a3.IsWhole) (a4 : Memref sig .tc .vmem S8x2048 .f32) (h4 : a4.IsWhole)
    (hc : cond0_0 i) (x : Vec F S512x2048 .f32) :
    out0_A_1 c i a2 h2 a3 h3 a4 h4 hc x = k0_pay3 x k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S8x2048) hz, View.readCov_unit_zero (S := S8x2048) _ hz]
  simp only [View.readAt_eq_ld, h2.read_unread, View.ld_unit_zero (S := S512x2048) hz]

theorem out_A2 (c : Dev nD) (i : grid0.Coords) (a2 : Memref sig .tc .vmem S512x2048 .f32) (h2 : a2.IsWhole)
    (a3 : Memref sig .tc .vmem S8x2048 .f32) (h3 : a3.IsWhole) (a4 : Memref sig .tc .vmem S8x2048 .f32) (h4 : a4.IsWhole)
    (hc : cond0_0 i) (x : Vec F S512x2048 .f32) :
    out0_A_2 c i a2 h2 a3 h3 a4 h4 hc x = k0_pay4 x k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S8x2048) hz, View.readCov_unit_zero (S := S8x2048) _ hz]
  simp only [View.readAt_eq_ld, h2.read_unread, View.ld_unit_zero (S := S512x2048) hz]

end Cases

/-! ## The stored values at (row, column), over the extended reals -/

/-- Putting row `k` back in front of column `j`. -/
theorem lift_col (h : S512x2048.Reduces [0] S2048) (j : Fin 2048) (k : Fin (S512x2048.size 0)) :
    h.lift (ix1 j) k = ix2 (⟨k.val, k.isLt⟩ : Fin 512) j := by
  funext c; apply Fin.ext
  fin_cases c <;> rfl

/-- The sum over the 512 rows of a block, at column `j`. -/
theorem colSum_apply (x : FVec Ideal S512x2048 .f32) (h : S512x2048.Reduces [0] S2048) (hφ : FKind.Formats .f32)
    (hacc : (0x00000000#32 : BitVec 32) = 0x00000000#32) (j : Fin 2048) :
    multiReduction .add [0] S2048 x 0x00000000#32 h hφ hacc (ix1 j) = ∑ k : Fin 512, x (ix2 k j) := by
  refine (Ideal.multiReduction_add_single x 0x00000000#32 h hφ hacc (ix1 j)).trans ?_
  show ∑ k : Fin 512, x (h.lift (ix1 j) k) = _
  exact Finset.sum_congr rfl fun k _ => congrArg x (lift_col h j k)

/-- The first accumulator's stored value: what it held plus the block's column sum, on every row. -/
theorem pay3_apply (x : Vec Ideal S512x2048 .f32) (xo : Vec Ideal S8x2048 .f32) (r : Fin 8) (j : Fin 2048) :
    k0_pay3 (F := Ideal) x xo (ix2 r j) = xo (ix2 r j) + ∑ k : Fin 512, x (ix2 k j) := by
  unfold k0_pay3
  refine (addf_apply _ _ _).trans ?_
  rw [shapeCast_self]
  refine congrArg (xo (ix2 r j) + ·) ?_
  refine (broadcastTo_1b_ab_apply _ _ r j).trans ?_
  rw [shapeCast_self]
  refine (shapeCast_a_1a_apply _ _ 0 j).trans ?_
  exact colSum_apply x _ _ _ j

/-- The second accumulator's stored value: what it held plus the block's column sum of squares. -/
theorem pay4_apply (x : Vec Ideal S512x2048 .f32) (xo : Vec Ideal S8x2048 .f32) (r : Fin 8) (j : Fin 2048) :
    k0_pay4 (F := Ideal) x xo (ix2 r j) = xo (ix2 r j) + ∑ k : Fin 512, x (ix2 k j) * x (ix2 k j) := by
  unfold k0_pay4
  refine (addf_apply _ _ _).trans ?_
  rw [shapeCast_self]
  refine congrArg (xo (ix2 r j) + ·) ?_
  refine (broadcastTo_1b_ab_apply _ _ r j).trans ?_
  rw [shapeCast_self]
  refine (shapeCast_a_1a_apply _ _ 0 j).trans ?_
  exact colSum_apply (mulf x x) _ _ _ j

/-- The zero block reads 0. -/
theorem pay1_apply (i : S8x2048.Idx) : k0_pay1 (F := Ideal) i = 0 := by
  unfold k0_pay1
  show Ideal.ofBits .f32 0x00000000#32 = 0
  exact Ideal.ofBits_zero_f32

theorem pay2_apply (i : S8x2048.Idx) : k0_pay2 (F := Ideal) i = 0 := by
  unfold k0_pay2
  show Ideal.ofBits .f32 0x00000000#32 = 0
  exact Ideal.ofBits_zero_f32

end Cert.Region0

end
-- ==== Proof.Region0Value.lean ====
/- The first kernel (column statistics) over its whole grid: what its two output arrays hold at the end.

   The grid is 2 cores x 16 steps, point n = 16 * core + step, and point n reads the 512 input rows
   [512 n, 512 (n+1)). After point n an accumulator block holds, on each of its 8 rows and at column j, the sum of the
   input's column j (of its squares, for the second accumulator) over the rows [8192 * (n / 16), 512 (n+1)) — all the
   rows its core has read so far. A core's block is written back after its last step, n = 16 * core + 15, into rows
   [8 * core, 8 * core + 8) of the [16, 2048] output: so row 8 * core holds the column sums over that core's 8192 rows. -/
import proofs.«143915_j86096914415914_2_alg».proof.Proof.Region0Pieces

noncomputable section

open Idealize.ShloMosaic Idealize.ShloMosaic.TcCoe Idealize.SL.Sem
open Idealize.ShloMosaic.Pipeline (Dat)

namespace Cert.Region0

open Cert.KernelIdeal Cert.KernelIdeal.Gen ValueIdx

/-! ## Sums over consecutive rows -/

/-- The sum of `f` over the rows the accumulator has seen after point `n`. -/
def acc (f : ℕ → EReal) (n : ℕ) : EReal := ∑ b ∈ Finset.Ico (8192 * (n / 16)) (512 * (n + 1)), f b

/-- The 512 rows of block `n`, as a range of rows. -/
theorem blk_sum (f : ℕ → EReal) (n : ℕ) :
    ∑ k : Fin 512, f (512 * n + k.val) = ∑ b ∈ Finset.Ico (512 * n) (512 * (n + 1)), f b := by
  rw [Fin.sum_univ_eq_sum_range (fun k => f (512 * n + k)) 512, Finset.sum_Ico_eq_sum_range]
  rw [show 512 * (n + 1) - 512 * n = 512 by omega]

/-- At a core's first step the accumulator has seen that step's block only. -/
theorem acc_first (f : ℕ → EReal) (n : ℕ) (h0 : n % 16 = 0) :
    acc f n = ∑ b ∈ Finset.Ico (512 * n) (512 * (n + 1)), f b := by
  unfold acc
  rw [show 8192 * (n / 16) = 512 * n by omega]

/-- At a later step it has seen one block more than at the step before. -/
theorem acc_step (f : ℕ → EReal) (n : ℕ) (h0 : ¬(n + 1) % 16 = 0) :
    acc f (n + 1) = acc f n + ∑ b ∈ Finset.Ico (512 * (n + 1)) (512 * (n + 1 + 1)), f b := by
  unfold acc
  rw [show (n + 1) / 16 = n / 16 by omega]
  exact (Finset.sum_Ico_consecutive f (by omega) (by omega)).symm

/-! ## The input's blocks -/

variable (V : (c : Dev nD) → (b : Ref sig .tc) → Buf (Elt Ideal) ((c : Thread nD τ).loc b))

/-- The input array as the region finds it. -/
abbrev inArr (c : Dev nD) : S16384x2048.Idx → EReal := V c main_arg0

/-- The same at (row, column), read as 0 beyond its 16384 rows. -/
def Xn (c : Dev nD) (b : ℕ) (j : Fin 2048) : EReal :=
  if h : b < 16384 then inArr V c (ix2 ⟨b, h⟩ j) else 0

/-- Point `t` reads block `t` of the rows, all columns. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem iblk_apply (c : Dev nD) (t : Fin cfg0.N) (k : Fin 512) (j : Fin 2048) :
    (iblk0 V c 0 t : Vec Ideal S512x2048 .f32) (ix2 k j) = Xn V c (512 * t.val + k.val) j := by
  have hN : t.val < 32 := lt_of_lt_of_eq t.isLt (show cfg0.N = 32 from N_0)
  have hb : 512 * t.val + k.val < 16384 := by have := k.isLt; omega
  unfold Xn
  rw [dif_pos hb]
  unfold iblk0
  rw [View.read_apply]
  show V c main_arg0 (((cfg0.win 0).blk t).view.emb (ix2 k j)) = V c main_arg0 (ix2 ⟨512 * t.val + k.val, hb⟩ j)
  refine congrArg (V c main_arg0) (funext fun a => Fin.ext ?_)
  obtain ⟨e0, e1⟩ := idx0 t
  match a with
  | ⟨0, _⟩ => show win0_0.index t (0 : Fin 2) * 512 + 1 * k.val = 512 * t.val + k.val; rw [e0]; omega
  | ⟨1, _⟩ => show win0_0.index t (1 : Fin 2) * 2048 + 1 * j.val = j.val; rw [e1]; omega

/-- One step on the first accumulator: what it held plus block `t`'s column sum. -/
theorem step1 (c : Dev nD) (t : Fin cfg0.N) (xo : Vec Ideal S8x2048 .f32) (r : Fin 8) (j : Fin 2048) :
    k0_pay3 (F := Ideal) (iblk0 V c 0 t) xo (ix2 r j)
      = xo (ix2 r j) + ∑ b ∈ Finset.Ico (512 * t.val) (512 * (t.val + 1)), Xn V c b j := by
  rw [pay3_apply, ← blk_sum (fun b => Xn V c b j) t.val]
  exact congrArg (xo (ix2 r j) + ·) (Finset.sum_congr rfl fun k _ => iblk_apply V c t k j)

/-- One step on the second accumulator: what it held plus block `t`'s column sum of squares. -/
theorem step2 (c : Dev nD) (t : Fin cfg0.N) (xo : Vec Ideal S8x2048 .f32) (r : Fin 8) (j : Fin 2048) :
    k0_pay4 (F := Ideal) (iblk0 V c 0 t) xo (ix2 r j)
      = xo (ix2 r j) + ∑ b ∈ Finset.Ico (512 * t.val) (512 * (t.val + 1)), Xn V c b j * Xn V c b j := by
  rw [pay4_apply, ← blk_sum (fun b => Xn V c b j * Xn V c b j) t.val]
  exact congrArg (xo (ix2 r j) + ·) (Finset.sum_congr rfl fun k _ => by rw [iblk_apply V c t k j])

/-! ## The accumulators after each point -/

theorem outsAt_apply (c : Dev nD) : ∀ (n : ℕ) (h : n < cfg0.N) (r : Fin 8) (j : Fin 2048),
    (outsAt0 V c n h).1 (ix2 r j) = acc (fun b => Xn V c b j) n
    ∧ (outsAt0 V c n h).2 (ix2 r j) = acc (fun b => Xn V c b j * Xn V c b j) n
  | 0, h, r, j => by
    rw [outsAt0_A V c ⟨0, h⟩ rfl]
    dsimp only
    rw [out_A1, out_A2, step1, step2, pay1_apply, pay2_apply, acc_first _ 0 rfl, acc_first _ 0 rfl]
    exact ⟨zero_add _, zero_add _⟩
  | n + 1, h, r, j => by
    by_cases h0 : (n + 1) % 16 = 0
    · rw [outsAt0_A V c ⟨n + 1, h⟩ h0]
      dsimp only
      rw [out_A1, out_A2, step1, step2, pay1_apply, pay2_apply, acc_first _ (n + 1) h0, acc_first _ (n + 1) h0]
      exact ⟨zero_add _, zero_add _⟩
    · rw [outsAt0_B V c ⟨n + 1, h⟩ h0]
      dsimp only
      rw [out_B1, out_B2, step1, step2, acc_step _ n h0, acc_step _ n h0]
      have ih := outsAt_apply c n (Nat.lt_of_succ_lt h) r j
      exact ⟨congrArg (· + _) ih.1, congrArg (· + _) ih.2⟩

/-! ## The output arrays -/

/-- An output array's entry at (row q, column j): its core's total, core = q / 8, after the core's last point. -/
def G (f : ℕ → Fin 2048 → EReal) : S16x2048.Idx → EReal :=
  fun i => acc (fun b => f b ⟨(i 1).val, (i 1).isLt⟩) (16 * ((i 0).val / 8) + 15)

theorem G_of (f : ℕ → Fin 2048 → EReal) (i : S16x2048.Idx) (n : ℕ) (j : Fin 2048)
    (h0 : 16 * ((i 0).val / 8) + 15 = n) (h1 : (i 1).val = j.val) : G f i = acc (fun b => f b j) n := by
  unfold G
  subst h0
  have e : (⟨(i 1).val, (i 1).isLt⟩ : Fin 2048) = j := Fin.ext h1
  rw [e]

/-- Point `t` writes block `t / 16` of the rows, all columns, of either output. -/
theorem idx1 : ∀ t : Fin cfg0.N, win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- What a core's last point writes back into the first output is that core's block of `G`. -/
theorem flushed1 (c : Dev nD) (t : Fin cfg0.N) (hf : (cfg0.win 1).flush t = true) :
    (dat0 V c).flushed 1 t = ((cfg0.win 1).blk t).view.read (Elt Ideal) (G (Xn V c)) := by
  have h15 : t.val % 16 = 15 := (flush0_1 t).mp hf
  obtain ⟨e0, e1⟩ := idx1 t
  show (cfg0.win 1).cut (grid0.coords t) ((dat0 V c).after 1 t) = _
  rw [after0_1]
  funext y
  revert y
  show ∀ y : S8x2048.Idx, (outsAt0 V c t.val t.isLt).1 y = G (Xn V c) (((cfg0.win 1).blk t).view.emb y)
  intro y
  obtain ⟨r, j, rfl⟩ : ∃ (r : Fin 8) (j : Fin 2048), y = ix2 r j := ⟨y 0, y 1, eq_ix2 y⟩
  rw [(outsAt_apply V c t.val t.isLt r j).1]
  refine (G_of (Xn V c) _ t.val j ?_ ?_).symm
  · show 16 * ((win0_1.index t (0 : Fin 2) * 8 + 1 * r.val) / 8) + 15 = t.val
    rw [e0]; have := r.isLt; omega
  · show win0_1.index t (1 : Fin 2) * 2048 + 1 * j.val = j.val
    rw [e1]; omega

theorem flushed2 (c : Dev nD) (t : Fin cfg0.N) (hf : (cfg0.win 2).flush t = true) :
    (dat0 V c).flushed 2 t = ((cfg0.win 2).blk t).view.read (Elt Ideal) (G fun b j => Xn V c b j * Xn V c b j) := by
  have h15 : t.val % 16 = 15 := (flush0_2 t).mp hf
  obtain ⟨e0, e1⟩ := idx2 t
  show (cfg0.win 2).cut (grid0.coords t) ((dat0 V c).after 2 t) = _
  rw [after0_2]
  funext y
  revert y
  show ∀ y : S8x2048.Idx, (outsAt0 V c t.val t.isLt).2 y
    = G (fun b j => Xn V c b j * Xn V c b j) (((cfg0.win 2).blk t).view.emb y)
  intro y
  obtain ⟨r, j, rfl⟩ : ∃ (r : Fin 8) (j : Fin 2048), y = ix2 r j := ⟨y 0, y 1, eq_ix2 y⟩
  rw [(outsAt_apply V c t.val t.isLt r j).2]
  refine (G_of (fun b j => Xn V c b j * Xn V c b j) _ t.val j ?_ ?_).symm
  · show 16 * ((win0_2.index t (0 : Fin 2) * 8 + 1 * r.val) / 8) + 15 = t.val
    rw [e0]; have := r.isLt; omega
  · show win0_2.index t (1 : Fin 2) * 2048 + 1 * j.val = j.val
    rw [e1]; omega

/-- Every row of an output lies in the block its core's last point writes back. -/
theorem cover1 (i : S16x2048.Idx) :
    ∃ t : Fin cfg0.N, (cfg0.win 1).flush t = true ∧ i ∈ ((cfg0.win 1).blk t).view.set := by
  have hi0 : (i 0).val < 16 := (i 0).isLt
  have hi1 : (i 1).val < 2048 := (i 1).isLt
  have hN : cfg0.N = 32 := N_0
  have hlt : 16 * ((i 0).val / 8) + 15 < cfg0.N := by rw [hN]; omega
  obtain ⟨e0, e1⟩ := idx1 ⟨16 * ((i 0).val / 8) + 15, hlt⟩
  refine ⟨⟨16 * ((i 0).val / 8) + 15, hlt⟩, (flush0_1 _).mpr (by show (16 * ((i 0).val / 8) + 15) % 16 = 15; omega), ?_⟩
  show i ∈ ((View.whole main_v0_0).slice (win0_1.rect ⟨16 * ((i 0).val / 8) + 15, hlt⟩)).set
  rw [View.set_slice_whole, Rect.mem_set_unit]
  intro a
  match a with
  | ⟨0, _⟩ =>
    show win0_1.index ⟨16 * ((i 0).val / 8) + 15, hlt⟩ (0 : Fin 2) * 8 ≤ (i 0).val
      ∧ (i 0).val < win0_1.index ⟨16 * ((i 0).val / 8) + 15, hlt⟩ (0 : Fin 2) * 8 + 8
    rw [e0]; dsimp only; omega
  | ⟨1, _⟩ =>
    show win0_1.index ⟨16 * ((i 0).val / 8) + 15, hlt⟩ (1 : Fin 2) * 2048 ≤ (i 1).val
      ∧ (i 1).val < win0_1.index ⟨16 * ((i 0).val / 8) + 15, hlt⟩ (1 : Fin 2) * 2048 + 2048
    rw [e1]; omega

theorem cover2 (i : S16x2048.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hN : cfg0.N = 32 := N_0
  have hlt : 16 * ((i 0).val / 8) + 15 < cfg0.N := by rw [hN]; omega
  obtain ⟨e0, e1⟩ := idx2 ⟨16 * ((i 0).val / 8) + 15, hlt⟩
  refine ⟨⟨16 * ((i 0).val / 8) + 15, hlt⟩, (flush0_2 _).mpr (by show (16 * ((i 0).val / 8) + 15) % 16 = 15; omega), ?_⟩
  show i ∈ ((View.whole main_v0_1).slice (win0_2.rect ⟨16 * ((i 0).val / 8) + 15, hlt⟩)).set
  rw [View.set_slice_whole, Rect.mem_set_unit]
  intro a
  match a with
  | ⟨0, _⟩ =>
    show win0_2.index ⟨16 * ((i 0).val / 8) + 15, hlt⟩ (0 : Fin 2) * 8 ≤ (i 0).val
      ∧ (i 0).val < win0_2.index ⟨16 * ((i 0).val / 8) + 15, hlt⟩ (0 : Fin 2) * 8 + 8
    rw [e0]; dsimp only; omega
  | ⟨1, _⟩ =>
    show win0_2.index ⟨16 * ((i 0).val / 8) + 15, hlt⟩ (1 : Fin 2) * 2048 ≤ (i 1).val
      ∧ (i 1).val < win0_2.index ⟨16 * ((i 0).val / 8) + 15, hlt⟩ (1 : Fin 2) * 2048 + 2048
    rw [e1]; omega

/-- The two output arrays after the region. -/
theorem final1 (c : Dev nD) : (dat0 V c).arrAt 1 cfg0.N = G (Xn V c) :=
  (dat0 V c).arrAt_eq_of_cover 1 (G (Xn V c)) (flushed1 V c) cover1

theorem final2 (c : Dev nD) : (dat0 V c).arrAt 2 cfg0.N = G (fun b j => Xn V c b j * Xn V c b j) :=
  (dat0 V c).arrAt_eq_of_cover 2 (G fun b j => Xn V c b j * Xn V c b j) (flushed2 V c) cover2

/-! ## The two cores' totals together: the whole column -/

/-- Row 0 (core 0's total) plus row 8 (core 1's total) is the sum over all 16384 rows. -/
theorem G_rows (f : ℕ → Fin 2048 → EReal) (j : Fin 2048) :
    G f (ix2 (0 : Fin 16) j) + G f (ix2 (8 : Fin 16) j) = ∑ b ∈ Finset.range 16384, f b j := by
  rw [G_of f (ix2 (0 : Fin 16) j) 15 j (by show 16 * (((0 : Fin 16) : ℕ) / 8) + 15 = 15; decide) rfl,
    G_of f (ix2 (8 : Fin 16) j) 31 j (by show 16 * (((8 : Fin 16) : ℕ) / 8) + 15 = 31; decide) rfl]
  unfold acc
  rw [Finset.range_eq_Ico]
  exact Finset.sum_Ico_consecutive _ (by norm_num) (by norm_num)

/-- The sum of the input's column over its 16384 rows, the rows as numbers; and of its squares. -/
theorem sum_Xn1 (c : Dev nD) (j : Fin 2048) :
    ∑ b ∈ Finset.range 16384, Xn V c b j = ∑ b : Fin 16384, inArr V c (ix2 b j) := by
  rw [← Fin.sum_univ_eq_sum_range (fun b => Xn V c b j) 16384]
  refine Finset.sum_congr rfl fun b _ => ?_
  unfold Xn
  rw [dif_pos b.isLt]

theorem sum_Xn2 (c : Dev nD) (j : Fin 2048) :
    ∑ b ∈ Finset.range 16384, Xn V c b j * Xn V c b j
      = ∑ b : Fin 16384, inArr V c (ix2 b j) * inArr V c (ix2 b j) := by
  rw [← Fin.sum_univ_eq_sum_range (fun b => Xn V c b j * Xn V c b j) 16384]
  refine Finset.sum_congr rfl fun b _ => ?_
  unfold Xn
  rw [dif_pos b.isLt]

end Cert.Region0

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.Region1.lean ====
/- The second pass (the row kernel) as one function of the arrays it is handed.

   The pass walks the 16384 x 2048 matrix in 16 blocks of 1024 rows.  At each block it is given the block `x`, the
   per-column scale row `a` and the per-column shift row `c` (both whole, at every block), forms the standardised
   entries `f = x * a - c`, and for every row of the block the two lane sums `s = sum_j f_j` and `s2 = sum_j f_j^2`;
   it writes the column `(s * s - s2) / 4192256` into rows `1024 t .. 1024 t + 1023` of a 16384 x 1 output.

   Below: the body's result read at one row of a block (`pay_apply`); each staged block as rows of its array
   (`matrix_block_apply`, `scale_row_apply`, `shift_row_apply`); what a block writes back is the matching block of
   ONE whole-array function `rowOut` (`written_back_eq`); the sixteen blocks tile the output (`rows_covered`); so the
   output array after the pass is `rowOut` of the three arrays as the pass found them (`final`).  Nothing here looks
   inside the three arrays: they are parameters. -/
import proofs.«143915_j86096914415914_2_alg».proof.Proof.Gen.KernelIdeal.Frame
import proofs.«143915_j86096914415914_2_alg».proof.Proof.Spec
import proofs.«143915_j86096914415914_2_alg».proof.Proof.Consts
import proofs.«143915_j86096914415914_2_alg».proof.Proof.LibKeepdims
import Idealize.ShloMosaic.Lib.Pipeline.Value
import Idealize.ShloMosaic.Lib.ValueLayout

noncomputable section

open scoped BigOperators

namespace Cert.Region1

open Idealize.ShloMosaic Idealize.ShloMosaic.ValueIdx Idealize.ShloMosaic.TcCoe Idealize.SL.Sem Cert.KernelIdeal Cert.KernelIdeal.Gen
open Idealize.ShloMosaic.Pipeline (Dat)

/-! ## The whole-array function -/

/-- The output column as a function of the matrix `x`, the scale row `a` and the shift row `c`: row `b` holds the
    pair mean of the standardised entries `x[b, j] * a[j] - c[j]` of that row. -/
def rowOut (x : S16384x2048.Idx → EReal) (a c : S1x2048.Idx → EReal) : S16384x1.Idx → EReal :=
  fun i => Cert.Spec.pairMean (fun b j => x (ix2 b j) * a (ix2 (0 : Fin 1) j) - c (ix2 (0 : Fin 1) j)) (i 0)

/-! ## The body's result at one row of a block -/

/-- The standardised entry formed from a block of the matrix and the two rows, at row `r` of the block and column `j`. -/
def fsBlk (x0 : Vec Ideal S1024x2048 .f32) (x1 x2 : Vec Ideal S1x2048 .f32) (r : Fin 1024) (j : Fin 2048) : EReal :=
  x0 (ix2 r j) * x1 (ix2 (0 : Fin 1) j) - x2 (ix2 (0 : Fin 1) j)

/-- The body's `x * a - c`, with each row spread over the 1024 rows of the block, read at `(r, j)`: a spread row reads
    its one row at column `j`. -/
theorem fs_apply (x0 : Vec Ideal S1024x2048 .f32) (x1 x2 : Vec Ideal S1x2048 .f32) (r : Fin 1024) (j : Fin 2048) :
    (subf (mulf x0 (broadcastTo S1024x2048 (shapeCast S1x2048 x1 shapeCasts_S1x2048_S1x2048) broadcasts_S1x2048_S1024x2048))
      (broadcastTo S1024x2048 (shapeCast S1x2048 x2 shapeCasts_S1x2048_S1x2048) broadcasts_S1x2048_S1024x2048) : FVec Ideal S1024x2048 .f32) (ix2 r j)
      = fsBlk x0 x1 x2 r j := by
  refine (subf_apply _ _ _).trans ?_
  refine congrArg₂ (fun p q : EReal => p - q) ((mulf_apply _ _ _).trans (congrArg (fun q : EReal => x0 (ix2 r j) * q) ?_)) ?_
  · rw [shapeCast_self]; exact broadcastTo_1b_ab_apply x1 _ r j
  · rw [shapeCast_self]; exact broadcastTo_1b_ab_apply x2 _ r j

/-- A sum over the lanes of a 1024 x 2048 block, started from the zero pattern and kept as a 1024 x 1 column, reads at
    row `r` the sum of that row's 2048 entries. -/
theorem rowSum_col_apply (v : FVec Ideal S1024x2048 .f32) (hφ : FKind.Formats .f32)
    (hacc : (0x00000000#32 : BitVec 32) = FKind.add.neutral .f32 hφ) (r : Fin 1024) (u : Fin 1) :
    shapeCast S1024x1 (multiReduction .add [1] S1024 v 0x00000000#32 reduces_S1024x2048_S1024 hφ hacc) shapeCasts_S1024_S1024x1 (ix2 r u)
      = ∑ j : Fin 2048, v (ix2 r j) :=
  (Cert.LibKeepdims.shapeCast_a_a1_apply _ shapeCasts_S1024_S1024x1 r u).trans
    (Cert.LibKeepdims.multiReduction_add_lastAxis_apply v _ reduces_S1024x2048_S1024 hφ hacc r)

/-- The value the body stores, at row `r` of the block: `((sum f)^2 - sum f^2)` divided by the number the pattern
    `0x4A7FE000` denotes, `f` the row's standardised entries. -/
theorem pay_apply (x0 : Vec Ideal S1024x2048 .f32) (x1 x2 : Vec Ideal S1x2048 .f32) (r : Fin 1024) (u : Fin 1) :
    k1_pay1 (F := Ideal) x0 x1 x2 (ix2 r u)
      = Ideal.div ((∑ j : Fin 2048, fsBlk x0 x1 x2 r j) * (∑ j : Fin 2048, fsBlk x0 x1 x2 r j)
          - ∑ j : Fin 2048, fsBlk x0 x1 x2 r j * fsBlk x0 x1 x2 r j) (Ideal.ofBits .f32 0x4A7FE000#32) := by
  unfold k1_pay1
  refine (divf_apply _ _ _).trans (congrArg₂ Ideal.div ?_ rfl)
  refine (subf_apply _ _ _).trans (congrArg₂ (fun p q : EReal => p - q) ?_ ?_)
  · refine (mulf_apply _ _ _).trans (congrArg₂ (fun p q : EReal => p * q) ?_ ?_) <;>
      exact (rowSum_col_apply _ _ _ r u).trans (Finset.sum_congr rfl fun j _ => fs_apply x0 x1 x2 r j)
  · refine (rowSum_col_apply _ _ _ r u).trans (Finset.sum_congr rfl fun j _ => ?_)
    exact (mulf_apply _ _ _).trans (congrArg₂ (fun p q : EReal => p * q) (fs_apply x0 x1 x2 r j) (fs_apply x0 x1 x2 r j))

/-- The body's result on blocks that are rows `1024 k ..` of a matrix `X` and the whole rows `A`, `C`, at a row of the
    block, is `rowOut X A C` at the row `1024 k` further down: the two sides are the same sums, term by term, and the
    divisor's pattern denotes 4192256. -/
theorem block_result (X : S16384x2048.Idx → EReal) (A C : S1x2048.Idx → EReal)
    (x0 : Vec Ideal S1024x2048 .f32) (x1 x2 : Vec Ideal S1x2048 .f32) (k : ℕ)
    (h0 : ∀ (r : Fin 1024) (j : Fin 2048) (b : Fin 16384), b.val = k * 1024 + r.val → x0 (ix2 r j) = X (ix2 b j))
    (h1 : ∀ j : Fin 2048, x1 (ix2 (0 : Fin 1) j) = A (ix2 (0 : Fin 1) j))
    (h2 : ∀ j : Fin 2048, x2 (ix2 (0 : Fin 1) j) = C (ix2 (0 : Fin 1) j))
    (y : S1024x1.Idx) (i : S16384x1.Idx) (hi : (i 0).val = k * 1024 + (y 0).val) :
    k1_pay1 (F := Ideal) x0 x1 x2 y = rowOut X A C i := by
  obtain ⟨r, u, rfl⟩ : ∃ (r : Fin 1024) (u : Fin 1), y = ix2 r u := ⟨y 0, y 1, eq_ix2 y⟩
  rw [pay_apply]
  unfold rowOut Cert.Spec.pairMean
  rw [Cert.Consts.ofBits_4192256]
  have e : ∀ j : Fin 2048, fsBlk x0 x1 x2 r j = (fun b j => X (ix2 b j) * A (ix2 (0 : Fin 1) j) - C (ix2 (0 : Fin 1) j)) (i 0) j := fun j => by
    unfold fsBlk
    rw [h0 r j (i 0) hi, h1 j, h2 j]
  simp only [e]

/-! ## The staged blocks as rows of their arrays -/

theorem zero_offsets : (![0, 0] : Fin 2 → Nat) = fun _ => 0 := funext fun a => by fin_cases a <;> rfl

-- the contents of the buffers when the pass is entered: a parameter
variable (V : (c : Dev nD) → (b : Ref sig .tc) → Buf (Elt Ideal) ((c : Thread nD τ).loc b))

/-- The block indices at grid point `t`: the matrix and the output move down one block per point, the two rows stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The matrix block at point `t` is rows `1024 t .. 1024 t + 1023` of the matrix. -/
theorem matrix_block_apply (c : Dev nD) (t : Fin cfg1.N) (r : Fin 1024) (j : Fin 2048) (b : Fin 16384)
    (hb : b.val = t.val * 1024 + r.val) :
    (iblk1 V c 0 t : Vec Ideal S1024x2048 .f32) (ix2 r j) = (V c main_arg0 : S16384x2048.Idx → EReal) (ix2 b j) := by
  obtain ⟨e0, e1, -⟩ := block_indices t
  unfold iblk1
  rw [View.read_apply]
  show V c main_arg0 _ = V c main_arg0 _
  congr 1
  funext a
  apply Fin.ext
  match a with
  | ⟨0, _⟩ => show win1_0.index t 0 * 1024 + 1 * r.val = b.val; rw [e0, hb]; omega
  | ⟨1, _⟩ => show win1_0.index t 1 * 2048 + 1 * j.val = j.val; rw [e1]; omega

/-- The scale row's block is the whole row at every point. -/
theorem scale_row_apply (c : Dev nD) (t : Fin cfg1.N) (j : Fin 2048) :
    (iblk1 V c 1 t : Vec Ideal S1x2048 .f32) (ix2 (0 : Fin 1) j) = (V c main_v17 : S1x2048.Idx → EReal) (ix2 (0 : Fin 1) j) := by
  obtain ⟨-, -, e2, e3, -⟩ := block_indices t
  unfold iblk1
  rw [View.read_apply]
  show V c main_v17 _ = V c main_v17 _
  congr 1
  funext a
  apply Fin.ext
  match a with
  | ⟨0, _⟩ => show win1_1.index t 0 * 1 + 1 * 0 = 0; rw [e2]
  | ⟨1, _⟩ => show win1_1.index t 1 * 2048 + 1 * j.val = j.val; rw [e3]; omega

/-- So is the shift row's. -/
theorem shift_row_apply (c : Dev nD) (t : Fin cfg1.N) (j : Fin 2048) :
    (iblk1 V c 2 t : Vec Ideal S1x2048 .f32) (ix2 (0 : Fin 1) j) = (V c main_v18 : S1x2048.Idx → EReal) (ix2 (0 : Fin 1) j) := by
  obtain ⟨-, -, -, -, e4, e5, -⟩ := block_indices t
  unfold iblk1
  rw [View.read_apply]
  show V c main_v18 _ = V c main_v18 _
  congr 1
  funext a
  apply Fin.ext
  match a with
  | ⟨0, _⟩ => show win1_2.index t 0 * 1 + 1 * 0 = 0; rw [e4]
  | ⟨1, _⟩ => show win1_2.index t 1 * 2048 + 1 * j.val = j.val; rw [e5]; omega

/-! ## From the blocks to the output array -/

/-- What point `t` writes back to the output is block `t` of `rowOut` of the three arrays: the body stores its result
    over the whole 1024 x 1 buffer, and row `y` of that buffer lands on row `1024 t + y` of the output. -/
theorem written_back_eq (c : Dev nD) (t : Fin cfg1.N) :
    (dat1 (F := Ideal) V c).flushed 3 t
      = ((cfg1.win 3).blk t).view.read (Elt Ideal) (rowOut (V c main_arg0) (V c main_v17) (V c main_v18)) := by
  show (cfg1.win 3).cut (grid1.coords t) ((dat1 V c).after 3 t) = _
  rw [after1_3]
  unfold out1_3
  rw [View.canon_unit_zero zero_offsets]
  simp only [View.ld_unit_zero (S := S1024x2048) zero_offsets, View.ld_unit_zero (S := S1x2048) zero_offsets]
  obtain ⟨-, -, -, -, -, -, e6, e7⟩ := block_indices t
  funext j
  refine block_result (V c main_arg0) (V c main_v17) (V c main_v18) (iblk1 V c 0 t) (iblk1 V c 1 t) (iblk1 V c 2 t) t.val
    (fun r j b hb => matrix_block_apply V c t r j b hb) (fun j => scale_row_apply V c t j) (fun j => shift_row_apply V c t j) _ _ ?_
  show win1_3.index t 0 * 1024 + 1 * (j 0).val = t.val * 1024 + (j 0).val
  rw [e6]; omega

/-- A row of the output is in point `t`'s block iff each coordinate is in the block's range on its axis. -/
theorem mem_block (t : Fin cfg1.N) (i : S16384x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v19).slice (win1_3.rect t)).set ↔ _
  rw [View.set_slice_whole, Rect.mem_set_unit]
  exact Iff.rfl

/-- Row `b` of the output is written back by point `b / 1024`: the sixteen blocks tile the column. -/
theorem rows_covered (i : S16384x1.Idx) : ∃ t : Fin cfg1.N, (cfg1.win 3).flush t = true ∧ i ∈ ((cfg1.win 3).blk t).view.set := by
  have hi0 : (i 0).val < 16384 := (i 0).isLt
  have hi1 : (i 1).val < 1 := (i 1).isLt
  have hN : cfg1.N = 16 := N_1
  have ht : (i 0).val / 1024 < cfg1.N := by rw [hN]; omega
  obtain ⟨-, -, -, -, -, -, e6, e7⟩ := block_indices ⟨(i 0).val / 1024, ht⟩
  refine ⟨⟨(i 0).val / 1024, ht⟩, flush1_3 _, ?_⟩
  rw [mem_block]
  intro a
  match a with
  | ⟨0, _⟩ =>
    show win1_3.index ⟨(i 0).val / 1024, ht⟩ (0 : Fin 2) * 1024 ≤ (i 0).val ∧ (i 0).val < win1_3.index ⟨(i 0).val / 1024, ht⟩ (0 : Fin 2) * 1024 + 1024
    rw [e6]; show (i 0).val / 1024 * 1024 ≤ (i 0).val ∧ (i 0).val < (i 0).val / 1024 * 1024 + 1024; omega
  | ⟨1, _⟩ =>
    show win1_3.index ⟨(i 0).val / 1024, ht⟩ (1 : Fin 2) * 1 ≤ (i 1).val ∧ (i 1).val < win1_3.index ⟨(i 0).val / 1024, ht⟩ (1 : Fin 2) * 1 + 1
    rw [e7]; omega

/-- The output column after the pass: every row's pair mean of the standardised entries, as one function of the matrix
    and the two rows the pass was entered with. -/
theorem final (c : Dev nD) :
    (dat1 (F := Ideal) V c).arrAt 3 cfg1.N = rowOut (V c main_arg0) (V c main_v17) (V c main_v18) :=
  (dat1 V c).arrAt_eq_of_cover 3 _ (fun t _ => written_back_eq V c t) rows_covered

end Cert.Region1

end
-- ==== Proof.KerValue.lean ====
/- The kernel program's result as one function of its input: following the input through the first kernel
   (column totals), the host operations between (mean, clamped one-pass variance, scale and shift rows), the second
   kernel (each row's pair mean of `w * a - c`) and the host operations after (mean of absolute values), the result
   buffer ends at `Spec.kOut` of the input matrix. -/
import proofs.«143915_j86096914415914_2_alg».proof.Proof.KerRun
import proofs.«143915_j86096914415914_2_alg».proof.Proof.KerHost
import proofs.«143915_j86096914415914_2_alg».proof.Proof.Region0Value
import proofs.«143915_j86096914415914_2_alg».proof.Proof.Region1
import proofs.«143915_j86096914415914_2_alg».proof.Proof.Spec

noncomputable section

open Idealize.ShloMosaic Idealize.ShloMosaic.TcCoe Idealize.SL.Sem

namespace Cert.KerValue

open Cert.KernelIdeal Cert.KernelIdeal.Gen ValueIdx

/-- An input array as a function of (row, column). -/
abbrev mat (x : S16384x2048.Idx → EReal) : Spec.Mat := fun b j => x (ix2 b j)

variable (m : (ℓ : Loc nD τ sig) → Buf (Elt Ideal) ℓ) (ρ : Dev nD → PrngReg)

/-- The first kernel's two output arrays and the second kernel's output column, when the regions are left; the
    launched input. -/
abbrev st1 (c : Dev nD) : S16x2048.Idx → EReal := W1 m ρ c (Proc.devRef .tc main_v0_0)
abbrev st2 (c : Dev nD) : S16x2048.Idx → EReal := W1 m ρ c (Proc.devRef .tc main_v0_1)
abbrev col (c : Dev nD) : S16384x1.Idx → EReal := W3 m ρ c (Proc.devRef .tc main_v19)
abbrev inp (c : Dev nD) : S16384x2048.Idx → EReal := m ((c : Thread nD τ).loc main_arg0)

/-- Rows 0 and 8 of the first statistics array add up to the input's column sum, -/
theorem stats1 (c : Dev nD) (j : Fin 2048) :
    st1 m ρ c (ix2 (0 : Fin 16) j) + st1 m ρ c (ix2 (8 : Fin 16) j) = Spec.kS1 (mat (inp m c)) j := by
  have e : st1 m ρ c = Region0.G (Region0.Xn (V0 m ρ) c) :=
    (W1_arr m ρ c 1).trans (Region0.final1 (V0 m ρ) c)
  rw [e, Region0.G_rows, Region0.sum_Xn1]
  rfl

/-- and of the second to its column sum of squares. -/
theorem stats2 (c : Dev nD) (j : Fin 2048) :
    st2 m ρ c (ix2 (0 : Fin 16) j) + st2 m ρ c (ix2 (8 : Fin 16) j) = Spec.kS2 (mat (inp m c)) j := by
  have e : st2 m ρ c = Region0.G (fun b j => Region0.Xn (V0 m ρ) c b j * Region0.Xn (V0 m ρ) c b j) :=
    (W1_arr m ρ c 2).trans (Region0.final2 (V0 m ρ) c)
  rw [e, Region0.G_rows, Region0.sum_Xn2]
  rfl

/-- The second kernel's output column at row `b` is the pair mean of the kernel's standardised matrix. -/
theorem pairs (c : Dev nD) (b : Fin 16384) :
    col m ρ c (ix2 b (0 : Fin 1)) = Spec.pairMean (Spec.kFs (mat (inp m c))) b := by
  have e : col m ρ c = Region1.rowOut (V2 m ρ c main_arg0) (V2 m ρ c main_v17) (V2 m ρ c main_v18) :=
    (W3_arr m ρ c 3).trans (Region1.final (V2 m ρ) c)
  rw [e]
  unfold Region1.rowOut
  show Spec.pairMean _ b = _
  refine congrArg (fun f => Spec.pairMean f b) (funext fun b' => funext fun j => ?_)
  rw [KerHost.V2_arg0, KerHost.V2_v17, KerHost.V2_v18,
    KerHost.hA_apply _ _ j _ _ (stats1 m ρ c j) (stats2 m ρ c j),
    KerHost.hC_apply _ _ j _ _ (stats1 m ρ c j) (stats2 m ρ c j)]
  rfl

/-- The result buffer's contents. -/
theorem value (c : Dev nD) : (W4 m ρ c (Proc.devRef .tc main_v23) : S_.Idx → EReal)
    = fun _ => Spec.kOut (mat (inp m c)) := by
  funext i
  rw [KerHost.W4_v23]
  show KerHost.hTail (col m ρ c) i = _
  rw [KerHost.hTail_apply]
  unfold Spec.kOut Spec.out
  refine congrArg (fun s => 1 * Ideal.div s Spec.cB) (Finset.sum_congr rfl fun b _ => ?_)
  rw [pairs m ρ c b]

/-- The run: the result at `Spec.kOut` of the launched input, the input unchanged. -/
theorem run : θ_run defs (onTc (τ := τ) (main (F := Ideal))) ⟨m, fun _ => 0, ρ⟩ (fun r => ∀ c : Dev nD,
      r.2.mem ((c.tc : Thread nD τ).loc main_v23) = (fun _ => Spec.kOut (mat (m ((c.tc : Thread nD τ).loc main_arg0))))
      ∧ r.2.mem ((c.tc : Thread nD τ).loc main_arg0) = m ((c.tc : Thread nD τ).loc main_arg0)) :=
  (θ_run defs _ _).mono (fun _ h c => ⟨(h c).1.trans (value m ρ c), (h c).2⟩) (KerRun.run m ρ)

end Cert.KerValue

end
-- ==== Proof.RefRun.lean ====
/- The reference program's @main as the LIST of its 52 host operations, the three module-local functions it calls
   (the standard deviation, which calls the variance, which calls the selection) written out at their call sites over
   the buffers of those calls, and its run read back: every weakly fair execution terminates with the result buffer at
   the operations' composed term of the argument's launch contents, the argument unchanged. -/
import proofs.«143915_j86096914415914_2_alg».proof.ReferenceIdeal
import proofs.«143915_j86096914415914_2_alg».proof.Proof.Gen.ReferenceIdeal
import Idealize.ShloMosaic.Lib.StableHlo.Run
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo

/-! ## The composed term, at the ideal instance

Stage by stage, in the program's order: the column means; inside the variance function the column means again
(kept as a 1×2048 row), the squared deviations, the divisor `16384 - 0`, the quotient, the test `16384 - 0 > 0` and
the selection between the quotient and the not-a-number literal; the square root; the standardised matrix; the row
sums of it and of its square; the pair mean; the absolute value, the sum over rows, the division by the batch size
and the multiplication by one. -/

/-- The literal `0.0` (a rank-zero tensor): every sum's initial value. -/
def zero : FVec Ideal S_ .f32 := constant (F := Ideal) S_ .f32 0x00000000#32
/-- The literal `16384.0`. -/
def batch : FVec Ideal S_ .f32 := constant (F := Ideal) S_ .f32 0x46800000#32
/-- The literal `4192256.0 = 2048 * 2047`. -/
def pairs : FVec Ideal S_ .f32 := constant (F := Ideal) S_ .f32 0x4A7FE000#32
/-- The literal `1.0`. -/
def one : FVec Ideal S_ .f32 := constant (F := Ideal) S_ .f32 0x3F800000#32
/-- The not-a-number literal the selection's second branch holds. -/
def nanLit : FVec Ideal S_ .f32 := constant (F := Ideal) S_ .f32 0x7FC00000#32

/-- The sum over the rows (axis 0) of a matrix. -/
def colSum (x : FVec Ideal S16384x2048 .f32) : FVec Ideal S2048 .f32 :=
  Host.reduceAdd (F := Ideal) x zero reducesTo_S16384x2048_S2048_d0 h_S_
/-- The sum over the columns (axis 1) of a matrix. -/
def rowSum (x : FVec Ideal S16384x2048 .f32) : FVec Ideal S16384 .f32 :=
  Host.reduceAdd (F := Ideal) x zero reducesTo_S16384x2048_S16384_d1 h_S_

/-- @main's column means: the column sums over the batch size. -/
def mean (w : FVec Ideal S16384x2048 .f32) : FVec Ideal S2048 .f32 :=
  Host.divf (F := Ideal) (colSum w) (broadcastInDim S2048 ![] bcast_S_S2048 batch)

/-- The variance function's column means, as a 1×2048 row. -/
def vMean (w : FVec Ideal S16384x2048 .f32) : FVec Ideal S1x2048 .f32 :=
  Host.divf (F := Ideal) (broadcastInDim S1x2048 ![1] bcast_S2048_S1x2048_1 (colSum w))
    (broadcastInDim S1x2048 ![] bcast_S_S1x2048 batch)
/-- The variance function's deviations from the column means. -/
def vDev (w : FVec Ideal S16384x2048 .f32) : FVec Ideal S16384x2048 .f32 :=
  subf (F := Ideal) w (broadcastInDim S16384x2048 ![0, 1] bcast_S1x2048_S16384x2048_0_1 (vMean w))
/-- Its divisor: the batch size minus the correction `0` (an integer literal, converted). -/
def vDen : FVec Ideal S_ .f32 :=
  subf (F := Ideal) batch (sitofp (F := Ideal) .f32 (constantI S_ 32 0#32))
/-- The column sums of squared deviations over the divisor. -/
def vQuot (w : FVec Ideal S16384x2048 .f32) : FVec Ideal S2048 .f32 :=
  Host.divf (F := Ideal) (colSum (mulf (F := Ideal) (vDev w) (vDev w))) (broadcastInDim S2048 ![] bcast_S_S2048 vDen)
/-- The test `divisor > 0`. -/
def vTest : IVec S_ 1 := cmpf (F := Ideal) .ogt vDen zero
/-- The variance: the quotient where the test holds, the not-a-number literal elsewhere. -/
def var (w : FVec Ideal S16384x2048 .f32) : FVec Ideal S2048 .f32 :=
  select (broadcastInDim S2048 ![] bcast_S_S2048 vTest) (vQuot w)
    (broadcastInDim S2048 ![] bcast_S_S2048 (id nanLit))
/-- The standard deviation. -/
def std (w : FVec Ideal S16384x2048 .f32) : FVec Ideal S2048 .f32 := Host.sqrt (F := Ideal) (var w)

/-- A per-column vector as a full matrix: first a 1×2048 row, then every row. -/
def rows (v : FVec Ideal S2048 .f32) : FVec Ideal S16384x2048 .f32 :=
  broadcastInDim S16384x2048 ![0, 1] bcast_S1x2048_S16384x2048_0_1 (broadcastInDim S1x2048 ![1] bcast_S2048_S1x2048_1 v)

/-- The standardised matrix. -/
def fs (w : FVec Ideal S16384x2048 .f32) : FVec Ideal S16384x2048 .f32 :=
  Host.divf (F := Ideal) (subf (F := Ideal) w (rows (mean w))) (rows (std w))

/-- Per row: the square of the sum minus the sum of squares, over the number of ordered pairs. -/
def pairMean (f : FVec Ideal S16384x2048 .f32) : FVec Ideal S16384 .f32 :=
  Host.divf (F := Ideal) (subf (F := Ideal) (mulf (F := Ideal) (rowSum f) (rowSum f)) (rowSum (mulf (F := Ideal) f f)))
    (broadcastInDim S16384 ![] bcast_S_S16384 pairs)

/-- The scalar: one times the sum over rows of the absolute pair means over the batch size. -/
def tail (f : FVec Ideal S16384x2048 .f32) : FVec Ideal S_ .f32 :=
  mulf (F := Ideal) one
    (Host.divf (F := Ideal) (Host.reduceAdd (F := Ideal) (Host.absf (F := Ideal) (pairMean f)) zero reducesTo_S16384_S_d0 h_S_) batch)

/-- What the reference computes from its argument's contents. -/
def refTerm (w : FVec Ideal Cert.ReferenceIdeal.S16384x2048 .f32) : FVec Ideal Cert.ReferenceIdeal.S_ .f32 :=
  tail (fs w)

/-! ## The operations and the run -/

variable {F : FTy → Type} [FloatOps F]

/-- @main's 52 operations, in order, the calls written out: six of @main's own; the variance function's nineteen
    (into the record `main_call0.call0`), the selection's three (into `main_call0.call0.call0`), the square root;
    then @main's remaining twenty-three. -/
abbrev ops : List (HloOp τ sig (Elt F)) :=
  [ nullary main_cst (constant S_ .f32 0x00000000#32),
    binary main_arg0 main_cst main_v0 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    nullary main_cst_0 (constant S_ .f32 0x46800000#32),
    unary main_cst_0 main_v1 (broadcastInDim S2048 ![] bcast_S_S2048 : (⟨S_, .f32⟩ : BufTy).Contents (Elt F) → (⟨S2048, .f32⟩ : BufTy).Contents (Elt F)),
    binary main_v0 main_v1 main_v2 (Host.divf : (⟨S2048, .f32⟩ : BufTy).Contents (Elt F) → (⟨S2048, .f32⟩ : BufTy).Contents (Elt F) → (⟨S2048, .f32⟩ : BufTy).Contents (Elt F)),
    nullary main_c (constantI S_ 32 0#32),
    TRef.nullary main_call0.call0.cst (constant S_ .f32 0x00000000#32),
    TRef.binary (.of main_arg0) main_call0.call0.cst main_call0.call0.v0 (fun x v => Host.reduceAdd x v reducesTo_S16384x2048_S2048_d0 h_S_),
    TRef.unary main_call0.call0.v0 main_call0.call0.v1 (broadcastInDim S1x2048 ![1] bcast_S2048_S1x2048_1),
    TRef.nullary main_call0.call0.cst_0 (constant S_ .f32 0x46800000#32),
    TRef.unary main_call0.call0.cst_0 main_call0.call0.v2 (broadcastInDim S1x2048 ![] bcast_S_S1x2048),
    TRef.binary main_call0.call0.v1 main_call0.call0.v2 main_call0.call0.v3 Host.divf,
    TRef.unary main_call0.call0.v3 main_call0.call0.v4 (broadcastInDim S16384x2048 ![0, 1] bcast_S1x2048_S16384x2048_0_1),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x46800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S16384x2048_S2048_d0 h_S_),
    TRef.unary main_call0.call0.v8 main_call0.call0.v10 (broadcastInDim S2048 ![] bcast_S_S2048),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S2048 ![] bcast_S_S2048),
    TRef.ternary main_call0.call0.v12 main_call0.call0.v11 main_call0.call0.call0.v1 main_call0.call0.call0.v2 (fun p a b => select (broadcastInDim S2048 ![] bcast_S_S2048 p) a b),
    TRef.unary main_call0.call0.call0.v2 main_call0.v1 Host.sqrt,
    unary main_v2 main_v4 (broadcastInDim S1x2048 ![1] bcast_S2048_S1x2048_1 : (⟨S2048, .f32⟩ : BufTy).Contents (Elt F) → (⟨S1x2048, .f32⟩ : BufTy).Contents (Elt F)),
    unary main_v4 main_v5 (broadcastInDim S16384x2048 ![0, 1] bcast_S1x2048_S16384x2048_0_1 : (⟨S1x2048, .f32⟩ : BufTy).Contents (Elt F) → (⟨S16384x2048, .f32⟩ : BufTy).Contents (Elt F)),
    binary main_arg0 main_v5 main_v6 (subf : (⟨S16384x2048, .f32⟩ : BufTy).Contents (Elt F) → (⟨S16384x2048, .f32⟩ : BufTy).Contents (Elt F) → (⟨S16384x2048, .f32⟩ : BufTy).Contents (Elt F)),
    unary main_v3 main_v7 (broadcastInDim S1x2048 ![1] bcast_S2048_S1x2048_1 : (⟨S2048, .f32⟩ : BufTy).Contents (Elt F) → (⟨S1x2048, .f32⟩ : BufTy).Contents (Elt F)),
    unary main_v7 main_v8 (broadcastInDim S16384x2048 ![0, 1] bcast_S1x2048_S16384x2048_0_1 : (⟨S1x2048, .f32⟩ : BufTy).Contents (Elt F) → (⟨S16384x2048, .f32⟩ : BufTy).Contents (Elt F)),
    binary main_v6 main_v8 main_v9 (Host.divf : (⟨S16384x2048, .f32⟩ : BufTy).Contents (Elt F) → (⟨S16384x2048, .f32⟩ : BufTy).Contents (Elt F) → (⟨S16384x2048, .f32⟩ : BufTy).Contents (Elt F)),
    nullary main_cst_1 (constant S_ .f32 0x00000000#32),
    binary main_v9 main_cst_1 main_v10 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    binary main_v9 main_v9 main_v11 (mulf : (⟨S16384x2048, .f32⟩ : BufTy).Contents (Elt F) → (⟨S16384x2048, .f32⟩ : BufTy).Contents (Elt F) → (⟨S16384x2048, .f32⟩ : BufTy).Contents (Elt F)),
    nullary main_cst_2 (constant S_ .f32 0x00000000#32),
    binary main_v11 main_cst_2 main_v12 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    binary main_v10 main_v10 main_v13 (mulf : (⟨S16384, .f32⟩ : BufTy).Contents (Elt F) → (⟨S16384, .f32⟩ : BufTy).Contents (Elt F) → (⟨S16384, .f32⟩ : BufTy).Contents (Elt F)),
    binary main_v13 main_v12 main_v14 (subf : (⟨S16384, .f32⟩ : BufTy).Contents (Elt F) → (⟨S16384, .f32⟩ : BufTy).Contents (Elt F) → (⟨S16384, .f32⟩ : BufTy).Contents (Elt F)),
    nullary main_cst_3 (constant S_ .f32 0x4A7FE000#32),
    unary main_cst_3 main_v15 (broadcastInDim S16384 ![] bcast_S_S16384 : (⟨S_, .f32⟩ : BufTy).Contents (Elt F) → (⟨S16384, .f32⟩ : BufTy).Contents (Elt F)),
    binary main_v14 main_v15 main_v16 (Host.divf : (⟨S16384, .f32⟩ : BufTy).Contents (Elt F) → (⟨S16384, .f32⟩ : BufTy).Contents (Elt F) → (⟨S16384, .f32⟩ : BufTy).Contents (Elt F)),
    unary main_v16 main_v17 (Host.absf : (⟨S16384, .f32⟩ : BufTy).Contents (Elt F) → (⟨S16384, .f32⟩ : BufTy).Contents (Elt F)),
    nullary main_cst_4 (constant S_ .f32 0x00000000#32),
    binary main_v17 main_cst_4 main_v18 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_5 (constant S_ .f32 0x46800000#32),
    binary main_v18 main_cst_5 main_v19 (Host.divf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v19 main_v20 (mulf : (⟨S_, .f32⟩ : BufTy).Contents (Elt F) → (⟨S_, .f32⟩ : BufTy).Contents (Elt F) → (⟨S_, .f32⟩ : BufTy).Contents (Elt F)) ]

-- fifty-two binds re-associated: the rewrite under the chain recurses once per statement
set_option maxRecDepth 2048 in
/-- @main is that straight line: the three functions' definitions unfolded at their calls and the records at their
    fields, both sides are one chain of host steps once sequencing is re-associated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    unary_bufs_sub .., binary_bufs_sub .., unary_bufs_sub .., unary_bufs_sub .., binary_bufs_sub .., nullary_bufs_sub ..,
    binary_bufs_sub .., binary_bufs_sub .., nullary_bufs_sub .., binary_bufs_sub .., binary_bufs_sub .., binary_bufs_sub ..,
    nullary_bufs_sub .., unary_bufs_sub .., binary_bufs_sub .., unary_bufs_sub .., nullary_bufs_sub .., binary_bufs_sub ..,
    nullary_bufs_sub .., binary_bufs_sub .., nullary_bufs_sub .., binary_bufs_sub ..⟩

/-- What the line leaves in the result buffer, from any contents: the composed term of the argument's. The fold is
    unrolled and each operation's result read at its own buffer (elsewhere: what was there); the typed references'
    transports are the identity at these literal references, so what is left is the term itself. -/
theorem out_eq (V : Valuation τ sig (Elt Ideal)) :
    after (ops (F := Ideal)) V (main_v20 : DevRef τ sig) = refTerm (V (main_arg0 : DevRef τ sig)) := by
  after_results_simp
  rfl

/-- The line writes nothing into the argument's buffer. -/
theorem arg0_eq (V : Valuation τ sig (Elt Ideal)) :
    after (ops (F := Ideal)) V (main_arg0 : DevRef τ sig) = V (main_arg0 : DevRef τ sig) := by
  after_results_simp

/-- On the device, from any memory with zero counters: every weakly fair execution of the reference's @main terminates
    with its result at `refTerm` of the argument's launch contents and the argument unchanged. -/
theorem run [Cert.ReferenceIdeal.Facts] (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v20) = refTerm (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  (θ_run defs _ _).mono (fun _ h c => ⟨(h c main_v20).trans (out_eq _), (h c main_arg0).trans (arg0_eq _)⟩)
    (run_seq scopedRefs_eq scopedSems_eq defs main (fun _ => ops) main_eq (fun _ => ops_sub) m ρ)

end Cert.RefRun

end
-- ==== Proof.RefRead.lean ====
/- The reference's composed term (Proof/RefRun.lean `refTerm`) read index by index at the ideal instance: each host
   operation at an explicit index — a sum over one axis as the initial value plus the `Fin`-indexed sum, the sum of a
   vector down to a scalar likewise, a broadcast as the operand at the index it reads, the arithmetic as the extended
   reals' — until the term is the reference's form of the result (Proof/Spec.lean `rOut`) on the input read as a
   function of (row, column). Inside the variance the divisor is `16384 - 0 = 16384`, the test `16384 - 0 > 0` holds,
   and the selection therefore takes its first branch. Every lemma is about an arbitrary operand; nothing full-size
   is unfolded. -/
import proofs.«143915_j86096914415914_2_alg».proof.Proof.RefRun
import proofs.«143915_j86096914415914_2_alg».proof.Proof.Spec
import proofs.«143915_j86096914415914_2_alg».proof.Proof.Consts
import Idealize.ShloMosaic.Lib.IdealHost
import Idealize.ShloMosaic.Lib.Pipeline.Value

noncomputable section

namespace Cert.RefRead

open Cert.ReferenceIdeal Cert.ReferenceIdeal.Gen Cert.RefRun Idealize.ShloMosaic Idealize.ShloMosaic.ValueIdx
open scoped BigOperators

/-! ## The host operations at an index, for an arbitrary operand -/

/-- The shape facts that name the inserted index: the matrix with its row axis, or its column axis, removed. -/
theorem red0 : S16384x2048.Reduces [0] S2048 := by decide
theorem red1 : S16384x2048.Reduces [1] S16384 := by decide

/-- The host's sum over the rows, at column `j`: the initial value plus the sum over the 16384 rows; the index
    with row `b` inserted before `j` is `(b, j)`. -/
theorem reduce0_apply (x : FVec Ideal S16384x2048 .f32) (init : FVec Ideal S_ .f32) (j : Fin 2048) :
    Host.reduceAdd (F := Ideal) x init reducesTo_S16384x2048_S2048_d0 h_S_ (ix1 j)
      = init ix0 + ∑ b : Fin 16384, x (ix2 b j) := by
  refine (hostReduceAdd_apply x init _ _ _).trans ?_
  refine (Ideal.hostReduceAdd_single reducesTo_S16384x2048_S2048_d0 red0 x _ (ix1 j)).trans ?_
  refine congrArg₂ (· + ·) (congrArg init (eq_ix0 _)) ?_
  exact Finset.sum_congr rfl fun k _ => congrArg x (funext fun a => match a with | ⟨0, _⟩ => rfl | ⟨1, _⟩ => rfl)

/-- The host's sum over the columns, at row `b`: the initial value plus the sum over the 2048 columns; the index
    with column `j` inserted after `b` is `(b, j)`. -/
theorem reduce1_apply (x : FVec Ideal S16384x2048 .f32) (init : FVec Ideal S_ .f32) (b : Fin 16384) :
    Host.reduceAdd (F := Ideal) x init reducesTo_S16384x2048_S16384_d1 h_S_ (ix1 b)
      = init ix0 + ∑ j : Fin 2048, x (ix2 b j) := by
  refine (hostReduceAdd_apply x init _ _ _).trans ?_
  refine (Ideal.hostReduceAdd_single reducesTo_S16384x2048_S16384_d1 red1 x _ (ix1 b)).trans ?_
  refine congrArg₂ (· + ·) (congrArg init (eq_ix0 _)) ?_
  exact Finset.sum_congr rfl fun k _ => congrArg x (funext fun a => match a with | ⟨0, _⟩ => rfl | ⟨1, _⟩ => rfl)

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of a vector down to a scalar: the initial value plus the sum over its 16384 entries (every axis
    of the result — there is none — has size one, so the sum is the total one). -/
theorem allSum_apply (v : FVec Ideal S16384 .f32) (init : FVec Ideal S_ .f32) (i : S_.Idx) :
    Host.reduceAdd (F := Ideal) v init reducesTo_S16384_S_d0 h_S_ i
      = init ix0 + ∑ b : Fin 16384, v (ix1 b) := by
  refine (hostReduceAdd_apply v init _ _ _).trans ?_
  refine (Ideal.hostReduceAdd_total reducesTo_S16384_S_d0 (fun b => b.elim0) v _ i).trans ?_
  exact congrArg₂ (· + ·) (congrArg init (eq_ix0 _)) (sum_idx1 v)

/-- A vector as a one-row matrix reads the vector at the column. -/
theorem bcastRow_apply {α : Type} (v : S2048.Idx → α) (a : Fin 1) (j : Fin 2048) :
    broadcastInDim S1x2048 ![1] bcast_S2048_S1x2048_1 v (ix2 a j) = v (ix1 j) :=
  broadcastInDim_apply _ _ v (ix2 a j) (ix1 j) fun c => match c with | ⟨0, _⟩ => rfl

/-- A one-row matrix copied into every row reads the row at the column. -/
theorem bcastRows_apply {α : Type} (r : S1x2048.Idx → α) (b : Fin 16384) (j : Fin 2048) :
    broadcastInDim S16384x2048 ![0, 1] bcast_S1x2048_S16384x2048_0_1 r (ix2 b j) = r (ix2 (0 : Fin 1) j) :=
  broadcastInDim_apply _ _ r (ix2 b j) (ix2 (0 : Fin 1) j) fun c => match c with | ⟨0, _⟩ => rfl | ⟨1, _⟩ => rfl

/-! ## The literals -/

theorem zero_apply (i : S_.Idx) : zero i = 0 := Ideal.ofBits_zero_f32
theorem batch_apply (i : S_.Idx) : batch i = Cert.Spec.cB := Cert.Consts.ofBits_16384
theorem pairs_apply (i : S_.Idx) : pairs i = Cert.Spec.cP := Cert.Consts.ofBits_4192256
theorem one_apply (i : S_.Idx) : one i = 1 := Cert.Consts.ofBits_one

/-! ## The sums from the zero literal -/

theorem colSum_apply (x : FVec Ideal S16384x2048 .f32) (j : Fin 2048) :
    colSum x (ix1 j) = ∑ b : Fin 16384, x (ix2 b j) := by
  refine (reduce0_apply x zero j).trans ?_
  rw [zero_apply, zero_add]

theorem rowSum_apply (x : FVec Ideal S16384x2048 .f32) (b : Fin 16384) :
    rowSum x (ix1 b) = ∑ j : Fin 2048, x (ix2 b j) := by
  refine (reduce1_apply x zero b).trans ?_
  rw [zero_apply, zero_add]

/-! ## The reference's standardisation, stage by stage -/

/-- The input as a function of (row, column). -/
abbrev mat (w : FVec Ideal S16384x2048 .f32) : Cert.Spec.Mat := fun b j => w (ix2 b j)

theorem mean_apply (w : FVec Ideal S16384x2048 .f32) (j : Fin 2048) :
    mean w (ix1 j) = Cert.Spec.rMean (mat w) j := by
  show Ideal.div (colSum w (ix1 j)) (broadcastInDim S2048 ![] bcast_S_S2048 batch (ix1 j)) = _
  rw [colSum_apply, broadcastInDim_scalar_apply, batch_apply]
  rfl

theorem vMean_apply (w : FVec Ideal S16384x2048 .f32) (a : Fin 1) (j : Fin 2048) :
    vMean w (ix2 a j) = Cert.Spec.rMean (mat w) j := by
  show Ideal.div (broadcastInDim S1x2048 ![1] bcast_S2048_S1x2048_1 (colSum w) (ix2 a j))
    (broadcastInDim S1x2048 ![] bcast_S_S1x2048 batch (ix2 a j)) = _
  rw [bcastRow_apply, colSum_apply, broadcastInDim_scalar_apply, batch_apply]
  rfl

theorem vDev_apply (w : FVec Ideal S16384x2048 .f32) (b : Fin 16384) (j : Fin 2048) :
    vDev w (ix2 b j) = w (ix2 b j) - Cert.Spec.rMean (mat w) j := by
  show w (ix2 b j) - broadcastInDim S16384x2048 ![0, 1] bcast_S1x2048_S16384x2048_0_1 (vMean w) (ix2 b j) = _
  rw [bcastRows_apply, vMean_apply]

/-- The divisor is the batch size: the correction is the integer zero, and `x - 0 = x`. -/
theorem vDen_apply (i : S_.Idx) : vDen i = Cert.Spec.cB := by
  have h0 : ((((0#32 : BitVec 32).toInt : ℤ) : ℝ) : EReal) = 0 := by simp
  show batch i - ((((0#32 : BitVec 32).toInt : ℤ) : ℝ) : EReal) = _
  rw [h0, sub_zero, batch_apply]

/-- The test `divisor > 0` holds. -/
theorem vTest_apply (i : S_.Idx) : vTest i = 1#1 := by
  show Ideal.cmp .ogt (vDen i) (zero i) = 1#1
  rw [vDen_apply, zero_apply]
  have hpos : (0 : EReal) < Cert.Spec.cB := by
    show (0 : EReal) < ((16384 : ℝ) : EReal)
    exact_mod_cast (by norm_num : (0 : ℝ) < 16384)
  show BitVec.ofBool (decide ((0 : EReal) < Cert.Spec.cB)) = 1#1
  rw [decide_eq_true hpos]
  rfl

theorem vQuot_apply (w : FVec Ideal S16384x2048 .f32) (j : Fin 2048) :
    vQuot w (ix1 j) = Ideal.div (Cert.Spec.rSS (mat w) j) Cert.Spec.cB := by
  show Ideal.div (colSum (mulf (F := Ideal) (vDev w) (vDev w)) (ix1 j))
    (broadcastInDim S2048 ![] bcast_S_S2048 vDen (ix1 j)) = _
  rw [colSum_apply, broadcastInDim_scalar_apply, vDen_apply]
  refine congrArg (fun s => Ideal.div s Cert.Spec.cB) ?_
  refine Finset.sum_congr rfl fun b _ => ?_
  rw [mulf_apply, vDev_apply]

/-- The selection takes its first branch: the not-a-number literal is never read. -/
theorem var_apply (w : FVec Ideal S16384x2048 .f32) (j : Fin 2048) :
    var w (ix1 j) = Ideal.div (Cert.Spec.rSS (mat w) j) Cert.Spec.cB := by
  show Scalar.select (broadcastInDim S2048 ![] bcast_S_S2048 vTest (ix1 j)) (vQuot w (ix1 j))
    (broadcastInDim S2048 ![] bcast_S_S2048 (id nanLit) (ix1 j)) = _
  rw [broadcastInDim_scalar_apply (x := vTest), vTest_apply, select_one, vQuot_apply]

theorem std_apply (w : FVec Ideal S16384x2048 .f32) (j : Fin 2048) :
    std w (ix1 j) = Cert.Spec.rStd (mat w) j := by
  show Ideal.sqrt (var w (ix1 j)) = _
  rw [var_apply]
  rfl

theorem rows_apply (v : FVec Ideal S2048 .f32) (b : Fin 16384) (j : Fin 2048) :
    rows v (ix2 b j) = v (ix1 j) := by
  show broadcastInDim S16384x2048 ![0, 1] bcast_S1x2048_S16384x2048_0_1
    (broadcastInDim S1x2048 ![1] bcast_S2048_S1x2048_1 v) (ix2 b j) = _
  rw [bcastRows_apply, bcastRow_apply]

theorem fs_apply (w : FVec Ideal S16384x2048 .f32) (b : Fin 16384) (j : Fin 2048) :
    fs w (ix2 b j) = Cert.Spec.rFs (mat w) b j := by
  show Ideal.div (w (ix2 b j) - rows (mean w) (ix2 b j)) (rows (std w) (ix2 b j)) = _
  rw [rows_apply, rows_apply, mean_apply, std_apply]
  rfl

/-! ## The shared tail -/

theorem pairMean_apply (f : FVec Ideal S16384x2048 .f32) (b : Fin 16384) :
    pairMean f (ix1 b) = Cert.Spec.pairMean (mat f) b := by
  show Ideal.div (rowSum f (ix1 b) * rowSum f (ix1 b) - rowSum (mulf (F := Ideal) f f) (ix1 b))
    (broadcastInDim S16384 ![] bcast_S_S16384 pairs (ix1 b)) = _
  rw [rowSum_apply, rowSum_apply, broadcastInDim_scalar_apply, pairs_apply]
  rfl

theorem tail_apply (f : FVec Ideal S16384x2048 .f32) (i : S_.Idx) :
    tail f i = Cert.Spec.out (mat f) := by
  show one i * Ideal.div (Host.reduceAdd (F := Ideal) (Host.absf (F := Ideal) (pairMean f)) zero reducesTo_S16384_S_d0 h_S_ i)
    (batch i) = _
  rw [one_apply, allSum_apply, zero_apply, zero_add, batch_apply]
  refine congrArg (fun s => 1 * Ideal.div s Cert.Spec.cB) ?_
  refine Finset.sum_congr rfl fun b _ => ?_
  show max (pairMean f (ix1 b)) (-(pairMean f (ix1 b))) = _
  rw [pairMean_apply]

/-- The reference's composed term, read index by index: at its one index it is the reference's form of the result on
    the input read as a function of (row, column). -/
theorem refTerm_eq (w : FVec Ideal Cert.ReferenceIdeal.S16384x2048 .f32) :
    refTerm w = fun _ => Cert.Spec.rOut (fun b j => w (ValueIdx.ix2 b j)) := by
  funext i
  show tail (fs w) i = _
  rw [tail_apply]
  show Cert.Spec.out (mat (fs w)) = Cert.Spec.out (Cert.Spec.rFs (mat w))
  refine congrArg Cert.Spec.out ?_
  funext b j
  exact fs_apply w b j

end Cert.RefRead

end
-- ==== Proof.LibRealSums.lean ====
/-
  Finite sums of extended reals that are all real numbers.

  The coercion of the reals into the extended reals is additive, so it commutes with a sum over any finite set; hence a
  finite sum of extended reals each of which is (the image of) a real number is itself one. This is what lets an
  equation between finite sums and products on the extended reals, whose entries are known to be finite, be proved over
  the reals, where distributivity and cancellation hold.
-/
import Mathlib

open scoped BigOperators

namespace Cert.LibRealSums

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of extended reals that are all real numbers is a real number. -/
theorem exists_real_sum {ι : Type*} (s : Finset ι) (f : ι → EReal) (h : ∀ i, ∃ r : ℝ, f i = r) :
    ∃ r : ℝ, ∑ i ∈ s, f i = r := by
  choose g hg using h
  exact ⟨∑ i ∈ s, g i, by rw [coe_finset_sum]; exact Finset.sum_congr rfl fun i _ => hg i⟩

end Cert.LibRealSums
-- ==== Proof.Bridge.lean ====
/- The real-number bridge between the two standardisations.

   When every entry of the input is a real number, every sum in either program is the image of a real sum, division by
   the batch size is multiplication by its reciprocal, and for a column with mean mu the one-pass variance
   S2 / B - mu^2 equals the two-pass variance (sum_b (x_b - mu)^2) / B (expand the square; sum_b x_b = B mu). When the
   column's sum of squared deviations is positive this common value is a positive real, so the kernel's clamp max (.) 0
   is the identity, the square root is the positive real root sigma, and
   x * (1 / sigma) - mu * (1 / sigma) = (x - mu) / sigma. Hence the two standardised matrices are equal, and so are the
   two scalars computed from them by the shared tail. -/
import Mathlib
import proofs.«143915_j86096914415914_2_alg».proof.Proof.Spec
import proofs.«143915_j86096914415914_2_alg».proof.Proof.LibRealSums

open scoped BigOperators

noncomputable section

namespace Cert.Bridge

open Idealize.ShloMosaic Cert.Spec Cert.LibRealSums

/-- Over the reals the one-pass variance equals the two-pass variance: with mu the mean of n numbers,
    (sum x^2) / n - mu^2 = (sum (x - mu)^2) / n. -/
theorem real_var_identity (n : ℕ) (hn : (n : ℝ) ≠ 0) (x : Fin n → ℝ) (mu : ℝ)
    (hmu : mu = (∑ b, x b) * (1 / (n : ℝ))) :
    (∑ b, x b * x b) * (1 / (n : ℝ)) - mu * mu = (∑ b, (x b - mu) * (x b - mu)) * (1 / (n : ℝ)) := by
  have hS1 : (∑ b, x b) = (n : ℝ) * mu := by rw [hmu]; field_simp
  have hexp : ∀ b, (x b - mu) * (x b - mu) = x b * x b - 2 * mu * x b + mu * mu := fun b => by ring
  simp_rw [hexp]
  rw [Finset.sum_add_distrib, Finset.sum_sub_distrib, ← Finset.mul_sum, Finset.sum_const, Finset.card_univ,
    Fintype.card_fin, nsmul_eq_mul, hS1]
  field_simp
  ring

/-- Column j's real mean, sum of squared deviations from the mean, and standard deviation. -/
def mu (x : Fin 16384 → Fin 2048 → ℝ) (j : Fin 2048) : ℝ := (∑ b, x b j) * (1 / (16384 : ℝ))
def ss (x : Fin 16384 → Fin 2048 → ℝ) (j : Fin 2048) : ℝ := ∑ b, (x b j - mu x j) * (x b j - mu x j)
def sd (x : Fin 16384 → Fin 2048 → ℝ) (j : Fin 2048) : ℝ := Real.sqrt (ss x j * (1 / (16384 : ℝ)))

theorem var_nonneg (x : Fin 16384 → Fin 2048 → ℝ) (j : Fin 2048) (hss : 0 < ss x j) :
    ¬ ss x j * (1 / (16384 : ℝ)) < 0 :=
  not_lt.mpr (mul_nonneg hss.le (by norm_num))

theorem sd_pos (x : Fin 16384 → Fin 2048 → ℝ) (j : Fin 2048) (hss : 0 < ss x j) : 0 < sd x j :=
  Real.sqrt_pos.2 (mul_pos hss (by norm_num))

/-- The one-pass variance of column j is its two-pass variance. -/
theorem one_pass_eq (x : Fin 16384 → Fin 2048 → ℝ) (j : Fin 2048) :
    (∑ b, x b j * x b j) * (1 / (16384 : ℝ)) - mu x j * mu x j = ss x j * (1 / (16384 : ℝ)) := by
  have h := real_var_identity 16384 (by norm_num) (fun b => x b j) (mu x j) (by simp only [mu, Nat.cast_ofNat])
  simp only [Nat.cast_ofNat] at h
  exact h

section Column

variable (w : Mat) (x : Fin 16384 → Fin 2048 → ℝ) (hx : ∀ b j, w b j = (x b j : EReal))

include hx

theorem rMean_coe (j : Fin 2048) : rMean w j = (mu x j : EReal) := by
  show Ideal.div (∑ b, w b j) ((16384 : ℝ) : EReal) = _
  simp only [hx]
  rw [Ideal.div_coe (by norm_num), ← coe_finset_sum, ← EReal.coe_mul]
  rfl

theorem kMean_coe (j : Fin 2048) : kMean w j = (mu x j : EReal) := rMean_coe w x hx j

theorem rSS_coe (j : Fin 2048) : rSS w j = (ss x j : EReal) := by
  show ∑ b, (w b j - rMean w j) * (w b j - rMean w j) = _
  rw [rMean_coe w x hx j]
  simp only [hx, ← EReal.coe_sub, ← EReal.coe_mul]
  rw [← coe_finset_sum]
  rfl

theorem rStd_coe (j : Fin 2048) (hss : 0 < ss x j) : rStd w j = (sd x j : EReal) := by
  show Ideal.sqrt (Ideal.div (rSS w j) ((16384 : ℝ) : EReal)) = _
  rw [rSS_coe w x hx j, Ideal.div_coe (by norm_num), ← EReal.coe_mul, Ideal.sqrt_coe, if_neg (var_nonneg x j hss)]
  rfl

theorem rFs_coe (b : Fin 16384) (j : Fin 2048) (hss : 0 < ss x j) :
    rFs w b j = (((x b j - mu x j) * (1 / sd x j) : ℝ) : EReal) := by
  show Ideal.div (w b j - rMean w j) (rStd w j) = _
  rw [rStd_coe w x hx j hss, rMean_coe w x hx j, hx b j, ← EReal.coe_sub, Ideal.div_coe (sd_pos x j hss).ne',
    ← EReal.coe_mul]

theorem kS2_coe (j : Fin 2048) : kS2 w j = ((∑ b, x b j * x b j : ℝ) : EReal) := by
  show ∑ b, w b j * w b j = _
  simp only [hx, ← EReal.coe_mul]
  rw [← coe_finset_sum]

theorem kVar_coe (j : Fin 2048) (hss : 0 < ss x j) : kVar w j = ((ss x j * (1 / (16384 : ℝ)) : ℝ) : EReal) := by
  show max (Ideal.div (kS2 w j) ((16384 : ℝ) : EReal) - kMean w j * kMean w j) 0 = _
  rw [kS2_coe w x hx j, kMean_coe w x hx j, Ideal.div_coe (by norm_num), ← EReal.coe_mul, ← EReal.coe_mul,
    ← EReal.coe_sub, one_pass_eq x j]
  exact max_eq_left (EReal.coe_nonneg.2 (mul_nonneg hss.le (by norm_num)))

theorem kA_coe (j : Fin 2048) (hss : 0 < ss x j) : kA w j = ((1 / sd x j : ℝ) : EReal) := by
  show Ideal.div 1 (Ideal.sqrt (kVar w j)) = _
  rw [kVar_coe w x hx j hss, Ideal.sqrt_coe, if_neg (var_nonneg x j hss)]
  show Ideal.div 1 ((sd x j : ℝ) : EReal) = _
  rw [Ideal.div_coe (sd_pos x j hss).ne', one_mul]

theorem kFs_coe (b : Fin 16384) (j : Fin 2048) (hss : 0 < ss x j) :
    kFs w b j = (((x b j - mu x j) * (1 / sd x j) : ℝ) : EReal) := by
  show w b j * kA w j - kMean w j * kA w j = _
  rw [kA_coe w x hx j hss, kMean_coe w x hx j, hx b j, ← EReal.coe_mul, ← EReal.coe_mul, ← EReal.coe_sub]
  congr 1
  ring

end Column

/-- On an input of real numbers whose every column has a positive sum of squared deviations from its mean, the kernel's
    scalar is the reference's. -/
theorem kOut_eq_rOut (w : Cert.Spec.Mat) (hfin : ∀ b j, ∃ x : ℝ, w b j = (x : EReal))
    (hpos : ∀ j, 0 < Cert.Spec.rSS w j) : Cert.Spec.kOut w = Cert.Spec.rOut w := by
  choose x hx using hfin
  have hss : ∀ j, 0 < ss x j := fun j => by
    have h := hpos j
    rw [rSS_coe w x hx j] at h
    exact EReal.coe_pos.1 h
  have hF : kFs w = rFs w := funext fun b => funext fun j => by
    rw [kFs_coe w x hx b j (hss j), rFs_coe w x hx b j (hss j)]
  show out (kFs w) = out (rFs w)
  rw [hF]

end Cert.Bridge

end
-- ==== Proof.PreRead.lean ====
/- Reading the precondition.

   The precondition is printed as a pure function of the input: the conjunction of "every entry's absolute value is
   below +infinity" and "every column's sum of squared deviations from its mean is above zero", each an all-reduction
   by "and" of an array of one-bit comparison results. From "the result is 1" we read back: every entry is a real
   number (an extended real whose absolute value is below the top element is neither infinity), and, column by column,
   the printed sum of squared deviations - the sum over the rows of (entry - mean)^2, with the mean the column sum
   divided by the constant 16384 - is the specification's, and is positive. -/
import proofs.«143915_j86096914415914_2_alg».proof.Pre_finite_inputs
import proofs.«143915_j86096914415914_2_alg».proof.Proof.Spec
import proofs.«143915_j86096914415914_2_alg».proof.Proof.Consts
import Idealize.ShloMosaic.Lib.ValueIdx
import Idealize.ShloMosaic.Lib.ReduceAll
import Idealize.ShloMosaic.Lib.IdealHost
import Idealize.ShloMosaic.PureOps.Ideal.Laws

open scoped BigOperators

noncomputable section

namespace Cert.PreRead

open Idealize.ShloMosaic Idealize.ShloMosaic.ValueIdx Cert.Pre_finite_inputs Cert.Spec

/-- The scalar shape has one index. -/
instance : Subsingleton S_.Idx := ⟨fun a b => funext fun d => d.elim0⟩

/-! ## Comparisons read back, and the extended reals of finite absolute value -/

theorem cmp_olt_one {x y : EReal} (h : Ideal.cmp .olt x y = 1#1) : x < y := by
  have h' : BitVec.ofBool (decide (x < y)) = 1#1 := h
  by_contra hn
  rw [decide_eq_false hn] at h'
  exact absurd h' (by decide)

theorem cmp_ogt_one {x y : EReal} (h : Ideal.cmp .ogt x y = 1#1) : y < x := by
  have h' : BitVec.ofBool (decide (y < x)) = 1#1 := h
  by_contra hn
  rw [decide_eq_false hn] at h'
  exact absurd h' (by decide)

/-- An extended real whose absolute value max x (-x) is below the top element is a real number. -/
theorem real_of_abs_lt_top (x : EReal) (h : max x (-x) < ⊤) : ∃ r : ℝ, x = (r : EReal) := by
  induction x using EReal.rec with
  | bot => simp at h
  | top => simp at h
  | coe r => exact ⟨r, rfl⟩

/-! ## The printed column statistics -/

section Stats

variable [Facts]

/-- The host's sum over the rows, from the zero constant. -/
def colSum (x : FVec Ideal S16384x2048 .f32) : FVec Ideal S2048 .f32 :=
  Host.reduceAdd x (constant (F := Ideal) S_ .f32 0x00000000#32) Facts.reducesTo_S16384x2048_S2048_d0 Facts.h_S_

/-- The printed column mean: the column sum divided by the broadcast constant 16384. -/
def meanV (w : FVec Ideal S16384x2048 .f32) : FVec Ideal S2048 .f32 :=
  Host.divf (colSum w) (broadcastInDim S2048 ![] Facts.bcast_S_S2048 (constant (F := Ideal) S_ .f32 0x46800000#32))

/-- The printed squared deviations: the mean broadcast to one row, then down the rows, subtracted and squared. -/
def devSq (w : FVec Ideal S16384x2048 .f32) : FVec Ideal S16384x2048 .f32 :=
  mulf
    (subf w (broadcastInDim S16384x2048 ![0, 1] Facts.bcast_S1x2048_S16384x2048_0_1
      (broadcastInDim S1x2048 ![1] Facts.bcast_S2048_S1x2048_1 (meanV w))))
    (subf w (broadcastInDim S16384x2048 ![0, 1] Facts.bcast_S1x2048_S16384x2048_0_1
      (broadcastInDim S1x2048 ![1] Facts.bcast_S2048_S1x2048_1 (meanV w))))

/-- The sum over the rows at column j is the sum over b of the entries (b, j). -/
theorem colSum_apply (x : FVec Ideal S16384x2048 .f32) (j : Fin 2048) :
    colSum x (ix1 j) = ∑ b : Fin 16384, x (ix2 b j) := by
  have hR : S16384x2048.Reduces [0] S2048 := by decide
  show Ideal.hostReduceAdd Facts.reducesTo_S16384x2048_S2048_d0 x (Ideal.ofBits .f32 0x00000000#32) (ix1 j) = _
  rw [Ideal.hostReduceAdd_single Facts.reducesTo_S16384x2048_S2048_d0 hR, Ideal.ofBits_zero_f32, zero_add]
  refine Finset.sum_congr rfl fun k _ => congrArg x (funext fun a => ?_)
  match a with
  | ⟨0, _⟩ => exact Fin.ext rfl
  | ⟨1, _⟩ => exact Fin.ext rfl

/-- The printed mean of column j is the specification's. -/
theorem meanV_apply (w : FVec Ideal S16384x2048 .f32) (j : Fin 2048) :
    meanV w (ix1 j) = rMean (fun b j => w (ix2 b j)) j := by
  show Ideal.div (colSum w (ix1 j)) (Ideal.ofBits .f32 0x46800000#32) = Ideal.div (∑ b, w (ix2 b j)) ((16384 : ℝ) : EReal)
  rw [colSum_apply, Cert.Consts.ofBits_16384]

/-- A column vector broadcast to one row and then down the rows reads the vector at the column. -/
theorem bcast_col (h1 : S2048.BroadcastsInDim S1x2048 ![1]) (h2 : S1x2048.BroadcastsInDim S16384x2048 ![0, 1])
    (m : S2048.Idx → EReal) (b : Fin 16384) (j : Fin 2048) :
    broadcastInDim S16384x2048 ![0, 1] h2 (broadcastInDim S1x2048 ![1] h1 m) (ix2 b j) = m (ix1 j) := by
  unfold broadcastInDim
  refine congrArg m (funext fun a => ?_)
  match a with
  | ⟨0, _⟩ => exact Fin.ext rfl

/-- The printed squared deviation at (b, j). -/
theorem devSq_apply (w : FVec Ideal S16384x2048 .f32) (b : Fin 16384) (j : Fin 2048) :
    devSq w (ix2 b j) = (w (ix2 b j) - meanV w (ix1 j)) * (w (ix2 b j) - meanV w (ix1 j)) := by
  show (w (ix2 b j) - broadcastInDim S16384x2048 ![0, 1] Facts.bcast_S1x2048_S16384x2048_0_1
      (broadcastInDim S1x2048 ![1] Facts.bcast_S2048_S1x2048_1 (meanV w)) (ix2 b j))
    * (w (ix2 b j) - broadcastInDim S16384x2048 ![0, 1] Facts.bcast_S1x2048_S16384x2048_0_1
      (broadcastInDim S1x2048 ![1] Facts.bcast_S2048_S1x2048_1 (meanV w)) (ix2 b j)) = _
  rw [bcast_col]

/-- The printed sum of squared deviations of column j is the specification's. -/
theorem ss_read (w : FVec Ideal S16384x2048 .f32) (j : Fin 2048) :
    colSum (devSq w) (ix1 j) = rSS (fun b j => w (ix2 b j)) j := by
  rw [colSum_apply]
  show _ = ∑ b : Fin 16384, (w (ix2 b j) - rMean (fun b j => w (ix2 b j)) j) * (w (ix2 b j) - rMean (fun b j => w (ix2 b j)) j)
  refine Finset.sum_congr rfl fun b _ => ?_
  rw [devSq_apply, meanV_apply]

end Stats

/-- From the printed precondition: every entry is a real number, and every column's sum of squared deviations from
    its mean is positive. -/
theorem of_pre [Cert.Pre_finite_inputs.Facts] (w : FVec Ideal Cert.Pre_finite_inputs.S16384x2048 .f32)
    (h : Cert.Pre_finite_inputs.fn (F := Ideal) w = fun _ => 1#1) :
    (∀ (b : Fin 16384) (j : Fin 2048), ∃ x : ℝ, w (ValueIdx.ix2 b j) = (x : EReal)) ∧
      ∀ j : Fin 2048, 0 < Cert.Spec.rSS (fun b j => w (ValueIdx.ix2 b j)) j := by
  have h0 := congrFun h ValueIdx.ix0
  dsimp only [fn, Idealize.ShloMosaic.andi] at h0
  obtain ⟨h1, h2⟩ := IntOp.andi_eq_one.1 h0
  refine ⟨fun b j => ?_, fun j => ?_⟩
  · have e := Host.reduce_andi_all _ _ _ _ ix0 h1 (ix2 b j)
    have e' : Ideal.cmp .olt (max (w (ix2 b j)) (-(w (ix2 b j)))) (Ideal.ofBits .f32 0x7F800000#32) = 1#1 := e
    rw [Cert.Consts.ofBits_inf] at e'
    exact real_of_abs_lt_top _ (cmp_olt_one e')
  · have e := Host.reduce_andi_all _ _ _ _ ix0 h2 (ix1 j)
    rw [cmpf_apply, Ideal.cmpf_def, broadcastInDim_scalar_apply, constant_apply, Ideal.ofBits_zero_f32] at e
    have e' : 0 < colSum (devSq w) (ix1 j) := cmp_ogt_one e
    rw [ss_read] at e'
    exact e'

end Cert.PreRead

end
-- ==== Proof.lean ====
/- The correlation regulariser: standardise every column of the input `w` (16384 rows, 2048 columns) over the rows,
   form per row the mean over ordered pairs of distinct columns of the product of standardised entries through
   sum_{i != j} f_i f_j = (sum f)^2 - sum f^2, take absolute values, and average over the rows.

   The kernel computes the column totals `S1 = sum w`, `S2 = sum w^2` in one pass (two half-sums per column, added on
   the host), the mean `S1 / B`, the variance as `max (S2 / B - mean^2) 0`, and standardises as `w * a - mean * a`
   with `a = 1 / sqrt var`. The reference takes the variance in two passes, `(sum (w - mean)^2) / B`, and standardises
   as `(w - mean) / sqrt var`. Over the extended reals the two agree when every entry is a real number and every
   column's sum of squared deviations is positive: then `S2 / B - mean^2` IS the two-pass variance, a positive real,
   the clamp at 0 does nothing, and `w * (1 / s) - mean * (1 / s) = (w - mean) / s`. (On a constant column the reference
   divides 0 by 0, which is why the precondition says the second thing.) From the standardised matrix on, the two
   programs compute the same function.

   The modules: Spec (both forms as plain functions), Bridge (their equality over the reals), PreRead (the
   precondition read as those two hypotheses), Region0Pieces / Region0Value (the first kernel: the accumulators after
   each grid point, by induction, and its two output arrays), Region1 (the second kernel's output column), KerHost
   (the host operations between and after), KerRun / KerValue (the kernel program's run, its result at the kernel
   form), RefRun / RefRead (the reference's run, its result at the reference form). -/
import proofs.«143915_j86096914415914_2_alg».proof.Defs
import proofs.«143915_j86096914415914_2_alg».proof.Proof.Gen.Kernel
import proofs.«143915_j86096914415914_2_alg».proof.Proof.Gen.Kernel.Frame
import proofs.«143915_j86096914415914_2_alg».proof.Proof.Gen.KernelIdeal
import proofs.«143915_j86096914415914_2_alg».proof.Proof.Gen.KernelIdeal.Frame
import proofs.«143915_j86096914415914_2_alg».proof.Proof.Gen.ReferenceIdeal
import proofs.«143915_j86096914415914_2_alg».proof.Proof.Gen.Pre_finite_inputs
import proofs.«143915_j86096914415914_2_alg».proof.Proof.KerValue
import proofs.«143915_j86096914415914_2_alg».proof.Proof.RefRun
import proofs.«143915_j86096914415914_2_alg».proof.Proof.RefRead
import proofs.«143915_j86096914415914_2_alg».proof.Proof.Bridge
import proofs.«143915_j86096914415914_2_alg».proof.Proof.PreRead
import Idealize.ShloMosaic.Adequacy
import Idealize.ShloMosaic.Init

noncomputable section

namespace Cert.Proof

open Idealize.ShloMosaic Idealize.SL.Sem

/-- The three programs run to the end without a fault and leave the input unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run m ρ)

/-- The idealisation rewrote nothing. -/
theorem preserves : Cert.preserves_Kernel_KernelIdeal := trivial

/-- Over the extended reals the kernel's result is its form `kOut` of the input, the reference's its form `rOut` of an
    input that agrees, and under the precondition the two forms are equal. -/
theorem algebraic : Cert.algebraic_KernelIdeal_ReferenceIdeal := by
  intro m ρ m' ρ' hpre hagree
  refine ⟨fun c _ => Cert.Spec.kOut (Cert.KerValue.mat (Cert.KerValue.inp m c)), Cert.KerValue.run m ρ, ?_⟩
  refine (θ_run Cert.ReferenceIdeal.defs _ _).mono (fun _ h c => ⟨(h c).1.trans ?_, (h c).2⟩) (Cert.RefRun.run m' ρ')
  rw [Cert.RefRead.refTerm_eq, hagree c]
  obtain ⟨hfin, hpos⟩ := Cert.PreRead.of_pre _ (hpre c)
  funext _
  exact (Cert.Bridge.kOut_eq_rOut _ hfin hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
